-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1723x512 : Shape := ⟨3, ![32, 1723, 512]⟩
abbrev S32x1723x1723 : Shape := ⟨3, ![32, 1723, 1723]⟩
abbrev S512 : Shape := ⟨1, ![512]⟩
abbrev S256x512 : Shape := ⟨2, ![256, 512]⟩
abbrev S256 : Shape := ⟨1, ![256]⟩
abbrev S256x256 : Shape := ⟨2, ![256, 256]⟩
abbrev S512x256 : Shape := ⟨2, ![512, 256]⟩
abbrev S_ : Shape := ⟨0, ![]⟩

class Facts : Prop where
  bcast_S_S32x1723x512 : S_.BroadcastsInDim S32x1723x512 (![] : Fin 0 → Fin S32x1723x512.rank)
  reducesTo_S32x1723x512_S_d0_1_2 : S32x1723x512.ReducesTo [0, 1, 2] S_
  h_S_ : 0 < S_.numel
  bcast_S_S32x1723x1723 : S_.BroadcastsInDim S32x1723x1723 (![] : Fin 0 → Fin S32x1723x1723.rank)
  reducesTo_S32x1723x1723_S_d0_1_2 : S32x1723x1723.ReducesTo [0, 1, 2] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256 .f32) (main_arg12 : FVec F S512x256 .f32) (main_arg13 : FVec F S512 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S512x256 .f32 := Host.absf main_arg12
  let main_cst_22 : FVec F S_ .f32 := constant S_ .f32 0x7F800000#32
  let main_v60 : FVec F S512x256 .f32 := broadcastInDim S512x256 ![] bcast_S_S512x256 main_cst_22
  let main_v61 : IVec S512x256 1 := cmpf .olt main_v59 main_v60
  let main_c_23 : IVec S_ 1 := constantI S_ 1 1#1
  let main_v62 : IVec S_ 1 := (fun x v => Host.reduce IntOp.andi x v reducesTo_S512x256_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_v63 main_v67

def fn_part2 {F : FTy → Type} [FloatOps F] (main_arg7 : FVec F S256 .f32) (main_arg8 : FVec F S256x256 .f32) (main_arg9 : FVec F S256 .f32) (main_arg10 : FVec F S256 .f32) (main_arg11 : FVec F S256 .f32) (main_arg12 : FVec F S512x256 .f32) (main_arg13 : FVec F S512 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_v48 main_v49 main_v50

def fn_part1 {F : FTy → Type} [FloatOps F] (main_arg4 : FVec F S256x512 .f32) (main_arg5 : FVec F S256 .f32) (main_arg6 : FVec F S256 .f32) (main_arg7 : FVec F S256 .f32) (main_arg8 : FVec F S256x256 .f32) (main_arg9 : FVec F S256 .f32) (main_arg10 : FVec F S256 .f32) (main_arg11 : FVec F S256 .f32) (main_arg12 : FVec F S512x256 .f32) (main_arg13 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S32x1723x512 .f32) (main_arg1 : FVec F S32x1723x1723 .f32) (main_arg2 : FVec F S512 .f32) (main_arg3 : FVec F S512 .f32) (main_arg4 : FVec F S256x512 .f32) (main_arg5 : FVec F S256 .f32) (main_arg6 : FVec F S256 .f32) (main_arg7 : FVec F S256 .f32) (main_arg8 : FVec F S256x256 .f32) (main_arg9 : FVec F S256 .f32) (main_arg10 : FVec F S256 .f32) (main_arg11 : FVec F S256 .f32) (main_arg12 : FVec F S512x256 .f32) (main_arg13 : FVec F S512 .f32) : IVec S_ 1 :=
  let main_v0 : FVec F S32x1723x512 .f32 := Host.absf main_arg0
  let main_cst : FVec F S_ .f32 := constant S_ .f32 0x7F800000#32
  let main_v1 : FVec F S32x1723x512 .f32 := broadcastInDim S32x1723x512 ![] bcast_S_S32x1723x512 main_cst
  let main_v2 : IVec S32x1723x512 1 := cmpf .olt main_v0 main_v1
  let main_c : IVec S_ 1 := constantI S_ 1 1#1
  let main_v3 : IVec S_ 1 := (fun x v => Host.reduce IntOp.andi x v reducesTo_S32x1723x512_S_d0_1_2 h_S_) main_v2 main_c
  let main_v4 : FVec F S32x1723x1723 .f32 := Host.absf main_arg1
  let main_cst_0 : FVec F S_ .f32 := constant S_ .f32 0x7F800000#32
  let main_v5 : FVec F S32x1723x1723 .f32 := broadcastInDim S32x1723x1723 ![] bcast_S_S32x1723x1723 main_cst_0
  let main_v6 : IVec S32x1723x1723 1 := cmpf .olt main_v4 main_v5
  let main_c_1 : IVec S_ 1 := constantI S_ 1 1#1
  let main_v7 : IVec S_ 1 := (fun x v => Host.reduce IntOp.andi x v reducesTo_S32x1723x1723_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_v13 main_v16
-- ==== Kernel.lean ====
abbrev S32x1723x512 : Shape := ⟨3, ![32, 1723, 512]⟩
abbrev S32x1723x1723 : Shape := ⟨3, ![32, 1723, 1723]⟩
abbrev S512 : Shape := ⟨1, ![512]⟩
abbrev S256x512 : Shape := ⟨2, ![256, 512]⟩
abbrev S256 : Shape := ⟨1, ![256]⟩
abbrev S256x256 : Shape := ⟨2, ![256, 256]⟩
abbrev S512x256 : Shape := ⟨2, ![512, 256]⟩
abbrev S1x1723x512 : Shape := ⟨3, ![1, 1723, 512]⟩
abbrev S1x1723x1723 : Shape := ⟨3, ![1, 1723, 1723]⟩
abbrev S1723x512 : Shape := ⟨2, ![1723, 512]⟩
abbrev S1723 : Shape := ⟨1, ![1723]⟩
abbrev S1723x1 : Shape := ⟨2, ![1723, 1]⟩
abbrev S1x512 : Shape := ⟨2, ![1, 512]⟩
abbrev S1723x256 : Shape := ⟨2, ![1723, 256]⟩
abbrev S1x256 : Shape := ⟨2, ![1, 256]⟩
abbrev S1723x1723 : Shape := ⟨2, ![1723, 1723]⟩

abbrev nBuf : Space → Nat
  | .hbm => 15
  | .vmem => 18
  | .smem => 0
  | _ => 0

abbrev bufTy : (tb : Table) → Fin (tcTables nBuf tb) → BufTy
  | .hbm, ⟨0, _⟩ => ⟨S32x1723x512, .f32⟩
  | .hbm, ⟨1, _⟩ => ⟨S32x1723x1723, .f32⟩
  | .hbm, ⟨2, _⟩ => ⟨S512, .f32⟩
  | .hbm, ⟨3, _⟩ => ⟨S512, .f32⟩
  | .hbm, ⟨4, _⟩ => ⟨S256x512, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S512x256, .f32⟩
  | .hbm, ⟨13, _⟩ => ⟨S512, .f32⟩
  | .hbm, ⟨14, _⟩ => ⟨S32x1723x512, .f32⟩
  | .local _ .vmem, ⟨0, _⟩ => ⟨S1x1723x512, .f32⟩
  | .local _ .vmem, ⟨1, _⟩ => ⟨S1x1723x512, .f32⟩
  | .local _ .vmem, ⟨2, _⟩ => ⟨S1x1723x1723, .f32⟩
  | .local _ .vmem, ⟨3, _⟩ => ⟨S1x1723x1723, .f32⟩
  | .local _ .vmem, ⟨4, _⟩ => ⟨S512, .f32⟩
  | .local _ .vmem, ⟨5, _⟩ => ⟨S512, .f32⟩
  | .local _ .vmem, ⟨6, _⟩ => ⟨S256x512, .f32⟩
  | .local _ .vmem, ⟨7, _⟩ => ⟨S256, .f32⟩
  | .local _ .vmem, ⟨8, _⟩ => ⟨S256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S512x256, .f32⟩
  | .local _ .vmem, ⟨15, _⟩ => ⟨S512, .f32⟩
  | .local _ .vmem, ⟨16, _⟩ => ⟨S1x1723x512, .f32⟩
  | .local _ .vmem, ⟨17, _⟩ => ⟨S1x1723x512, .f32⟩
  | _, _ => ⟨S32x1723x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1723x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1723x1723 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1723x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  inb_S1x1723x512_S1x1723x512_0_0_0 : ∀ a, (![0, 0, 0] : Fin 3 → Nat) a + S1x1723x512.size a ≤ S1x1723x512.size a
  h_S1x1723x512 : 0 < S1x1723x512.numel
  shapeCasts_S1x1723x512_S1723x512 : S1x1723x512.ShapeCasts S1723x512
  inb_S512_S512_0 : ∀ a, (![0] : Fin 1 → Nat) a + S512.size a ≤ S512.size a
  h_S512 : 0 < S512.numel
  reduces_S1723x512_S1723 : S1723x512.Reduces [1] S1723
  shapeCasts_S1723_S1723x1 : S1723.ShapeCasts S1723x1
  broadcasts_S1723x1_S1723x512 : S1723x1.Broadcasts S1723x512
  shapeCasts_S512_S1x512 : S512.ShapeCasts S1x512
  broadcasts_S1x512_S1723x512 : S1x512.Broadcasts S1723x512
  inb_S256x512_S256x512_0_0 : ∀ a, (![0, 0] : Fin 2 → Nat) a + S256x512.size a ≤ S256x512.size a
  h_S256x512 : 0 < S256x512.numel
  inb_S256_S256_0 : ∀ a, (![0] : Fin 1 → Nat) a + S256.size a ≤ S256.size a
  h_S256 : 0 < S256.numel
  shapeCasts_S256_S1x256 : S256.ShapeCasts S1x256
  broadcasts_S1x256_S1723x256 : S1x256.Broadcasts S1723x256
  reduces_S1723x256_S1723 : S1723x256.Reduces [1] S1723
  broadcasts_S1723x1_S1723x256 : S1723x1.Broadcasts S1723x256
  inb_S256x256_S256x256_0_0 : ∀ a, (![0, 0] : Fin 2 → Nat) a + S256x256.size a ≤ S256x256.size a
  h_S256x256 : 0 < S256x256.numel
  inb_S1x1723x1723_S1x1723x1723_0_0_0 : ∀ a, (![0, 0, 0] : Fin 3 → Nat) a + S1x1723x1723.size a ≤ S1x1723x1723.size a
  h_S1x1723x1723 : 0 < S1x1723x1723.numel
  shapeCasts_S1x1723x1723_S1723x1723 : S1x1723x1723.ShapeCasts S1723x1723
  inb_S512x256_S512x256_0_0 : ∀ a, (![0, 0] : Fin 2 → Nat) a + S512x256.size a ≤ S512x256.size a
  h_S512x256 : 0 < S512x256.numel
  shapeCasts_S1723x512_S1x1723x512 : S1723x512.ShapeCasts S1x1723x512
  dot_S1723x512_S256x512_S1723x256_1_1_0_0_n_n_wf : DotDims.WF S1723x512 S256x512 S1723x256 [1] [1] [0] [0] [] []
  dot_S1723x256_S256x256_S1723x256_1_0_0_1_n_n_wf : DotDims.WF S1723x256 S256x256 S1723x256 [1] [0] [0] [1] [] []
  dot_S1723x1723_S1723x256_S1723x256_1_0_0_1_n_n_wf : DotDims.WF S1723x1723 S1723x256 S1723x256 [1] [0] [0] [1] [] []
  dot_S1723x256_S512x256_S1723x512_1_1_0_0_n_n_wf : DotDims.WF S1723x256 S512x256 S1723x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1723x512.size a ≤ S32x1723x512.size a
  hwx0_0 : ∀ i : grid0.Coords, EltTy.bits .f32 = 32 ∨ (Rect.block (s := S32x1723x512) S1x1723x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1723x1723.size a ≤ S32x1723x1723.size a
  hwx0_1 : ∀ i : grid0.Coords, EltTy.bits .f32 = 32 ∨ (Rect.block (s := S32x1723x1723) S1x1723x1723.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S512x256.size a
  hwx0_12 : ∀ i : grid0.Coords, EltTy.bits .f32 = 32 ∨ (Rect.block (s := S512x256) S512x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512.size a ≤ S512.size a
  hwx0_13 : ∀ i : grid0.Coords, EltTy.bits .f32 = 32 ∨ (Rect.block (s := S512) S512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1723x512.size a ≤ S32x1723x512.size a
  hwx0_14 : ∀ i : grid0.Coords, EltTy.bits .f32 = 32 ∨ (Rect.block (s := S32x1723x512) S1x1723x512.size (cc0_transform_14 i) (hinb0_14 i)).WholeWords (EltTy.packing .f32)

variable [Facts₀]

def dot_S1723x512_S256x512_S1723x256_1_1_0_0_n_n : DotDims S1723x512 S256x512 S1723x256 where
  lhsContracting := [1]
  rhsContracting := [1]
  lhsNonContracting := [0]
  rhsNonContracting := [0]
  lhsBatch := []
  rhsBatch := []
  wf := dot_S1723x512_S256x512_S1723x256_1_1_0_0_n_n_wf
def dot_S1723x256_S256x256_S1723x256_1_0_0_1_n_n : DotDims S1723x256 S256x256 S1723x256 where
  lhsContracting := [1]
  rhsContracting := [0]
  lhsNonContracting := [0]
  rhsNonContracting := [1]
  lhsBatch := []
  rhsBatch := []
  wf := dot_S1723x256_S256x256_S1723x256_1_0_0_1_n_n_wf
def dot_S1723x1723_S1723x256_S1723x256_1_0_0_1_n_n : DotDims S1723x1723 S1723x256 S1723x256 where
  lhsContracting := [1]
  rhsContracting := [0]
  lhsNonContracting := [0]
  rhsNonContracting := [1]
  lhsBatch := []
  rhsBatch := []
  wf := dot_S1723x1723_S1723x256_S1723x256_1_0_0_1_n_n_wf
def dot_S1723x256_S512x256_S1723x512_1_1_0_0_n_n : DotDims S1723x256 S512x256 S1723x512 where
  lhsContracting := [1]
  rhsContracting := [1]
  lhsNonContracting := [0]
  rhsNonContracting := [0]
  lhsBatch := []
  rhsBatch := []
  wf := dot_S1723x256_S512x256_S1723x512_1_1_0_0_n_n_wf

abbrev win0_0 : Pipeline.Window sig grid0 :=
  Pipeline.Window.ofSpec (Memref.whole main_arg0) S1x1723x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1723x1723.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S512x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v0) S1x1723x512.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S32x1723x512 : Shape := ⟨3, ![32, 1723, 512]⟩
abbrev S32x1723x1723 : Shape := ⟨3, ![32, 1723, 1723]⟩
abbrev S512 : Shape := ⟨1, ![512]⟩
abbrev S256x512 : Shape := ⟨2, ![256, 512]⟩
abbrev S256 : Shape := ⟨1, ![256]⟩
abbrev S256x256 : Shape := ⟨2, ![256, 256]⟩
abbrev S512x256 : Shape := ⟨2, ![512, 256]⟩
abbrev S_ : Shape := ⟨0, ![]⟩
abbrev S32x1723 : Shape := ⟨2, ![32, 1723]⟩
abbrev S32x1723x1 : Shape := ⟨3, ![32, 1723, 1]⟩
abbrev S1x1x512 : Shape := ⟨3, ![1, 1, 512]⟩
abbrev S32x1723x256 : Shape := ⟨3, ![32, 1723, 256]⟩
abbrev S1x1x256 : Shape := ⟨3, ![1, 1, 256]⟩

abbrev nBuf : Space → Nat
  | .hbm => 124
  | .vmem => 0
  | .smem => 0
  | _ => 0

abbrev bufTy : (tb : Table) → Fin (tcTables nBuf tb) → BufTy
  | .hbm, ⟨0, _⟩ => ⟨S32x1723x512, .f32⟩
  | .hbm, ⟨1, _⟩ => ⟨S32x1723x1723, .f32⟩
  | .hbm, ⟨2, _⟩ => ⟨S512, .f32⟩
  | .hbm, ⟨3, _⟩ => ⟨S512, .f32⟩
  | .hbm, ⟨4, _⟩ => ⟨S256x512, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S512x256, .f32⟩
  | .hbm, ⟨13, _⟩ => ⟨S512, .f32⟩
  | .hbm, ⟨14, _⟩ => ⟨S_, .f32⟩
  | .hbm, ⟨15, _⟩ => ⟨S32x1723, .f32⟩
  | .hbm, ⟨16, _⟩ => ⟨S32x1723x1, .f32⟩
  | .hbm, ⟨17, _⟩ => ⟨S_, .f32⟩
  | .hbm, ⟨18, _⟩ => ⟨S32x1723x1, .f32⟩
  | .hbm, ⟨19, _⟩ => ⟨S32x1723x1, .f32⟩
  | .hbm, ⟨20, _⟩ => ⟨S32x1723x512, .f32⟩
  | .hbm, ⟨21, _⟩ => ⟨S32x1723x512, .f32⟩
  | .hbm, ⟨22, _⟩ => ⟨S32x1723x512, .f32⟩
  | .hbm, ⟨23, _⟩ => ⟨S_, .f32⟩
  | .hbm, ⟨24, _⟩ => ⟨S32x1723, .f32⟩
  | .hbm, ⟨25, _⟩ => ⟨S32x1723x1, .f32⟩
  | .hbm, ⟨26, _⟩ => ⟨S_, .f32⟩
  | .hbm, ⟨27, _⟩ => ⟨S32x1723x1, .f32⟩
  | .hbm, ⟨28, _⟩ => ⟨S32x1723x1, .f32⟩
  | .hbm, ⟨29, _⟩ => ⟨S32x1723x512, .f32⟩
  | .hbm, ⟨30, _⟩ => ⟨S32x1723x512, .f32⟩
  | .hbm, ⟨31, _⟩ => ⟨S_, .f32⟩
  | .hbm, ⟨32, _⟩ => ⟨S32x1723x1, .f32⟩
  | .hbm, ⟨33, _⟩ => ⟨S32x1723x1, .f32⟩
  | .hbm, ⟨34, _⟩ => ⟨S32x1723x1, .f32⟩
  | .hbm, ⟨35, _⟩ => ⟨S32x1723x512, .f32⟩
  | .hbm, ⟨36, _⟩ => ⟨S32x1723x512, .f32⟩
  | .hbm, ⟨37, _⟩ => ⟨S1x1x512, .f32⟩
  | .hbm, ⟨38, _⟩ => ⟨S32x1723x512, .f32⟩
  | .hbm, ⟨39, _⟩ => ⟨S32x1723x512, .f32⟩
  | .hbm, ⟨40, _⟩ => ⟨S1x1x512, .f32⟩
  | .hbm, ⟨41, _⟩ => ⟨S32x1723x512, .f32⟩
  | .hbm, ⟨42, _⟩ => ⟨S32x1723x512, .f32⟩
  | .hbm, ⟨43, _⟩ => ⟨S_, .f32⟩
  | .hbm, ⟨44, _⟩ => ⟨S32x1723x512, .f32⟩
  | .hbm, ⟨45, _⟩ => ⟨S32x1723x512, .f32⟩
  | .hbm, ⟨46, _⟩ => ⟨S32x1723x256, .f32⟩
  | .hbm, ⟨47, _⟩ => ⟨S1x1x256, .f32⟩
  | .hbm, ⟨48, _⟩ => ⟨S32x1723x256, .f32⟩
  | .hbm, ⟨49, _⟩ => ⟨S32x1723x256, .f32⟩
  | .hbm, ⟨50, _⟩ => ⟨S_, .f32⟩
  | .hbm, ⟨51, _⟩ => ⟨S32x1723, .f32⟩
  | .hbm, ⟨52, _⟩ => ⟨S32x1723x1, .f32⟩
  | .hbm, ⟨53, _⟩ => ⟨S_, .f32⟩
  | .hbm, ⟨54, _⟩ => ⟨S32x1723x1, .f32⟩
  | .hbm, ⟨55, _⟩ => ⟨S32x1723x1, .f32⟩
  | .hbm, ⟨56, _⟩ => ⟨S32x1723x256, .f32⟩
  | .hbm, ⟨57, _⟩ => ⟨S32x1723x256, .f32⟩
  | .hbm, ⟨58, _⟩ => ⟨S32x1723x256, .f32⟩
  | .hbm, ⟨59, _⟩ => ⟨S_, .f32⟩
  | .hbm, ⟨60, _⟩ => ⟨S32x1723, .f32⟩
  | .hbm, ⟨61, _⟩ => ⟨S32x1723x1, .f32⟩
  | .hbm, ⟨62, _⟩ => ⟨S_, .f32⟩
  | .hbm, ⟨63, _⟩ => ⟨S32x1723x1, .f32⟩
  | .hbm, ⟨64, _⟩ => ⟨S32x1723x1, .f32⟩
  | .hbm, ⟨65, _⟩ => ⟨S32x1723x256, .f32⟩
  | .hbm, ⟨66, _⟩ => ⟨S32x1723x256, .f32⟩
  | .hbm, ⟨67, _⟩ => ⟨S_, .f32⟩
  | .hbm, ⟨68, _⟩ => ⟨S32x1723x1, .f32⟩
  | .hbm, ⟨69, _⟩ => ⟨S32x1723x1, .f32⟩
  | .hbm, ⟨70, _⟩ => ⟨S32x1723x1, .f32⟩
  | .hbm, ⟨71, _⟩ => ⟨S32x1723x256, .f32⟩
  | .hbm, ⟨72, _⟩ => ⟨S32x1723x256, .f32⟩
  | .hbm, ⟨73, _⟩ => ⟨S1x1x256, .f32⟩
  | .hbm, ⟨74, _⟩ => ⟨S32x1723x256, .f32⟩
  | .hbm, ⟨75, _⟩ => ⟨S32x1723x256, .f32⟩
  | .hbm, ⟨76, _⟩ => ⟨S1x1x256, .f32⟩
  | .hbm, ⟨77, _⟩ => ⟨S32x1723x256, .f32⟩
  | .hbm, ⟨78, _⟩ => ⟨S32x1723x256, .f32⟩
  | .hbm, ⟨79, _⟩ => ⟨S_, .f32⟩
  | .hbm, ⟨80, _⟩ => ⟨S32x1723x256, .f32⟩
  | .hbm, ⟨81, _⟩ => ⟨S32x1723x256, .f32⟩
  | .hbm, ⟨82, _⟩ => ⟨S32x1723x256, .f32⟩
  | .hbm, ⟨83, _⟩ => ⟨S32x1723x256, .f32⟩
  | .hbm, ⟨84, _⟩ => ⟨S1x1x256, .f32⟩
  | .hbm, ⟨85, _⟩ => ⟨S32x1723x256, .f32⟩
  | .hbm, ⟨86, _⟩ => ⟨S32x1723x256, .f32⟩
  | .hbm, ⟨87, _⟩ => ⟨S_, .f32⟩
  | .hbm, ⟨88, _⟩ => ⟨S32x1723, .f32⟩
  | .hbm, ⟨89, _⟩ => ⟨S32x1723x1, .f32⟩
  | .hbm, ⟨90, _⟩ => ⟨S_, .f32⟩
  | .hbm, ⟨91, _⟩ => ⟨S32x1723x1, .f32⟩
  | .hbm, ⟨92, _⟩ => ⟨S32x1723x1, .f32⟩
  | .hbm, ⟨93, _⟩ => ⟨S32x1723x256, .f32⟩
  | .hbm, ⟨94, _⟩ => ⟨S32x1723x256, .f32⟩
  | .hbm, ⟨95, _⟩ => ⟨S32x1723x256, .f32⟩
  | .hbm, ⟨96, _⟩ => ⟨S_, .f32⟩
  | .hbm, ⟨97, _⟩ => ⟨S32x1723, .f32⟩
  | .hbm, ⟨98, _⟩ => ⟨S32x1723x1, .f32⟩
  | .hbm, ⟨99, _⟩ => ⟨S_, .f32⟩
  | .hbm, ⟨100, _⟩ => ⟨S32x1723x1, .f32⟩
  | .hbm, ⟨101, _⟩ => ⟨S32x1723x1, .f32⟩
  | .hbm, ⟨102, _⟩ => ⟨S32x1723x256, .f32⟩
  | .hbm, ⟨103, _⟩ => ⟨S32x1723x256, .f32⟩
  | .hbm, ⟨104, _⟩ => ⟨S_, .f32⟩
  | .hbm, ⟨105, _⟩ => ⟨S32x1723x1, .f32⟩
  | .hbm, ⟨106, _⟩ => ⟨S32x1723x1, .f32⟩
  | .hbm, ⟨107, _⟩ => ⟨S32x1723x1, .f32⟩
  | .hbm, ⟨108, _⟩ => ⟨S32x1723x256, .f32⟩
  | .hbm, ⟨109, _⟩ => ⟨S32x1723x256, .f32⟩
  | .hbm, ⟨110, _⟩ => ⟨S1x1x256, .f32⟩
  | .hbm, ⟨111, _⟩ => ⟨S32x1723x256, .f32⟩
  | .hbm, ⟨112, _⟩ => ⟨S32x1723x256, .f32⟩
  | .hbm, ⟨113, _⟩ => ⟨S1x1x256, .f32⟩
  | .hbm, ⟨114, _⟩ => ⟨S32x1723x256, .f32⟩
  | .hbm, ⟨115, _⟩ => ⟨S32x1723x256, .f32⟩
  | .hbm, ⟨116, _⟩ => ⟨S_, .f32⟩
  | .hbm, ⟨117, _⟩ => ⟨S32x1723x256, .f32⟩
  | .hbm, ⟨118, _⟩ => ⟨S32x1723x256, .f32⟩
  | .hbm, ⟨119, _⟩ => ⟨S32x1723x512, .f32⟩
  | .hbm, ⟨120, _⟩ => ⟨S1x1x512, .f32⟩
  | .hbm, ⟨121, _⟩ => ⟨S32x1723x512, .f32⟩
  | .hbm, ⟨122, _⟩ => ⟨S32x1723x512, .f32⟩
  | .hbm, ⟨123, _⟩ => ⟨S32x1723x512, .f32⟩
  | _, _ => ⟨S32x1723x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call0_cst : Ref sig .tc := ⟨.hbm, 43, rfl⟩
abbrev main_call0_v0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call1_cst : Ref sig .tc := ⟨.hbm, 79, rfl⟩
abbrev main_call1_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_cst_10 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_11 : Ref sig .tc := ⟨.hbm, 96, rfl⟩
abbrev main_v66 : Ref sig .tc := ⟨.hbm, 97, rfl⟩
abbrev main_v67 : Ref sig .tc := ⟨.hbm, 98, rfl⟩
abbrev main_cst_12 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_13 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call2_cst : Ref sig .tc := ⟨.hbm, 116, rfl⟩
abbrev main_call2_v0 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]

class Facts₀ : Prop where
  reducesTo_S32x1723x512_S32x1723_d2 : S32x1723x512.ReducesTo [2] S32x1723
  h_S_ : 0 < S_.numel
  bcast_S32x1723_S32x1723x1_0_1 : S32x1723.BroadcastsInDim S32x1723x1 (![0, 1] : Fin 2 → Fin S32x1723x1.rank)
  bcast_S_S32x1723x1 : S_.BroadcastsInDim S32x1723x1 (![] : Fin 0 → Fin S32x1723x1.rank)
  bcast_S32x1723x1_S32x1723x512_0_1_2 : S32x1723x1.BroadcastsInDim S32x1723x512 (![0, 1, 2] : Fin 3 → Fin S32x1723x512.rank)
  bcast_S512_S1x1x512_2 : S512.BroadcastsInDim S1x1x512 (![2] : Fin 1 → Fin S1x1x512.rank)
  bcast_S1x1x512_S32x1723x512_0_1_2 : S1x1x512.BroadcastsInDim S32x1723x512 (![0, 1, 2] : Fin 3 → Fin S32x1723x512.rank)
  bcast_S_S32x1723x512 : S_.BroadcastsInDim S32x1723x512 (![] : Fin 0 → Fin S32x1723x512.rank)
  bcast_S256_S1x1x256_2 : S256.BroadcastsInDim S1x1x256 (![2] : Fin 1 → Fin S1x1x256.rank)
  bcast_S1x1x256_S32x1723x256_0_1_2 : S1x1x256.BroadcastsInDim S32x1723x256 (![0, 1, 2] : Fin 3 → Fin S32x1723x256.rank)
  reducesTo_S32x1723x256_S32x1723_d2 : S32x1723x256.ReducesTo [2] S32x1723
  bcast_S32x1723x1_S32x1723x256_0_1_2 : S32x1723x1.BroadcastsInDim S32x1723x256 (![0, 1, 2] : Fin 3 → Fin S32x1723x256.rank)
  bcast_S_S32x1723x256 : S_.BroadcastsInDim S32x1723x256 (![] : Fin 0 → Fin S32x1723x256.rank)
  dot_S32x1723x512_S256x512_S32x1723x256_2_1_01_0_n_n_wf : DotDims.WF S32x1723x512 S256x512 S32x1723x256 [2] [1] [0, 1] [0] [] []
  dot_S32x1723x256_S256x256_S32x1723x256_2_0_01_1_n_n_wf : DotDims.WF S32x1723x256 S256x256 S32x1723x256 [2] [0] [0, 1] [1] [] []
  dot_S32x1723x1723_S32x1723x256_S32x1723x256_2_1_1_2_0_0_wf : DotDims.WF S32x1723x1723 S32x1723x256 S32x1723x256 [2] [1] [1] [2] [0] [0]
  dot_S32x1723x256_S512x256_S32x1723x512_2_1_01_0_n_n_wf : DotDims.WF S32x1723x256 S512x256 S32x1723x512 [2] [1] [0, 1] [0] [] []

variable [Facts₀]

def dot_S32x1723x512_S256x512_S32x1723x256_2_1_01_0_n_n : DotDims S32x1723x512 S256x512 S32x1723x256 where
  lhsContracting := [2]
  rhsContracting := [1]
  lhsNonContracting := [0, 1]
  rhsNonContracting := [0]
  lhsBatch := []
  rhsBatch := []
  wf := dot_S32x1723x512_S256x512_S32x1723x256_2_1_01_0_n_n_wf
def dot_S32x1723x256_S256x256_S32x1723x256_2_0_01_1_n_n : DotDims S32x1723x256 S256x256 S32x1723x256 where
  lhsContracting := [2]
  rhsContracting := [0]
  lhsNonContracting := [0, 1]
  rhsNonContracting := [1]
  lhsBatch := []
  rhsBatch := []
  wf := dot_S32x1723x256_S256x256_S32x1723x256_2_0_01_1_n_n_wf
def dot_S32x1723x1723_S32x1723x256_S32x1723x256_2_1_1_2_0_0 : DotDims S32x1723x1723 S32x1723x256 S32x1723x256 where
  lhsContracting := [2]
  rhsContracting := [1]
  lhsNonContracting := [1]
  rhsNonContracting := [2]
  lhsBatch := [0]
  rhsBatch := [0]
  wf := dot_S32x1723x1723_S32x1723x256_S32x1723x256_2_1_1_2_0_0_wf
def dot_S32x1723x256_S512x256_S32x1723x512_2_1_01_0_n_n : DotDims S32x1723x256 S512x256 S32x1723x512 where
  lhsContracting := [2]
  rhsContracting := [1]
  lhsNonContracting := [0, 1]
  rhsNonContracting := [0]
  lhsBatch := []
  rhsBatch := []
  wf := dot_S32x1723x256_S512x256_S32x1723x512_2_1_01_0_n_n_wf

class Facts : Prop extends Facts₀ where

variable [Facts]
-- ==== Proof.LibColumnBroadcast.lean ====
/-
  One column broadcast over many: a general layout lemma, in the style of the library's row form. A `[a, 1]` array
  broadcast to `[a, b]` repeats its one column: the entry at `(p, c)` is the operand's entry at `(p, 0)`, whatever
  the column `c`. (What a row statistic kept with its unit axis — a row sum, a row maximum — needs when it meets a
  full tile.)
-/
import Idealize.ShloMosaic.Lib.Pipeline.Value
import Idealize.ShloMosaic.Lib.ValueIdx

namespace Cert.Layout

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.LibUnitAxes.lean ====
/-
  Unit axes added and dropped: general layout lemmas, in the style of the library's leading-unit-axis forms.
  A block of a rank-4 array is `[1, 1, a, b]`; viewed as the matrix `[a, b]` its entry `(p, c)` is the block's
  entry `(0, 0, p, c)`. A vector `[a]` kept as a column `[a, 1]` has, at `(p, 0)`, the vector's entry `p`.
  Both are the same row-major position on the two sides.
-/
import Idealize.ShloMosaic.Lib.Pipeline.Value
import Idealize.ShloMosaic.Lib.ValueIdx

namespace Cert.Layout

open Idealize.ShloMosaic Idealize.ShloMosaic.ValueIdx

/-- A `[1, 1, a, b]` block viewed as the matrix `[a, b]` reads, at `(p, c)`, the block's entry `(0, 0, p, c)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) := by
  refine shapeCast_apply x h (ix2 p c) (ix4 (0 : Fin 1) (0 : Fin 1) p c) ?_
  rw [Shape.rowMajor_val_four, Shape.rowMajor_val_two]
  show ((0 * 1 + 0) * a + p.val) * b + c.val = p.val * b + c.val
  simp

/-- A vector `[a]` kept as a column `[a, 1]` reads, at `(p, 0)`, the vector's entry `p`. -/
theorem shapeCast_a_a1_apply {α : Type} {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  simp

end Cert.Layout
-- ==== Proof.LibRank3Layout.lean ====
/-
  Rank-3 layout operations and lane reductions read at an index, over literal-size index constructors.

  A flat array of `a * b` rows viewed as `a` groups of `b` rows; the keep-dimension cast that appends a unit axis; the
  broadcast of that unit axis along the lanes; the broadcast of a leading unit axis over the groups; and, at the
  exact extended reals, the lane sum and the lane maximum of a rank-3 array and the row sum of a rank-2 array, each
  as a sum or a fold over `Fin` of the operand at the index with the reduced coordinate inserted.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRank3

open Idealize.ShloMosaic Idealize.ShloMosaic.ValueIdx

variable {α : Type}

/-- `[n, d]` viewed `[a, b, d]` (so `n = a * b`): entry `(p, q, r)` is row `p * b + q`, column `r`. -/
theorem shapeCast_rows_apply {n a b d : ℕ} (x : (⟨2, ![n, d]⟩ : Shape).Idx → α)
    (h : (⟨2, ![n, d]⟩ : Shape).ShapeCasts ⟨3, ![a, b, d]⟩) (p : Fin a) (q : Fin b) (r : Fin d)
    (hpq : p.val * b + q.val < n) :
    shapeCast ⟨3, ![a, b, d]⟩ x h (ix3 p q r) = x (ix2 ⟨p.val * b + q.val, hpq⟩ r) := by
  refine shapeCast_apply x h _ _ ?_
  rw [Shape.rowMajor_val_two, Shape.rowMajor_val_three]
  rfl

/-- `[a, b]` viewed `[a, b, 1]`: entry `(p, q, 0)` is entry `(p, q)`. -/
theorem shapeCast_keepdim_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h _ _ ?_
  rw [Shape.rowMajor_val_two, Shape.rowMajor_val_three]
  show p.val * b + q.val = (p.val * b + q.val) * 1 + z.val
  have := z.isLt
  omega

/-- `[a, b, 1]` broadcast along the lanes to `[a, b, c]`: entry `(p, q, r)` is entry `(p, q, 0)`. -/
theorem broadcastTo_lane_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q ⟨0, Nat.one_pos⟩) := by
  refine broadcastTo_apply x h _ _ fun d => ?_
  match d with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ =>
    show (0 : ℕ) = if (1 : ℕ) = 1 then 0 else r.val
    rw [if_pos rfl]

/-- `[1, b, c]` broadcast over the groups to `[a, b, c]`: entry `(p, q, r)` is entry `(0, q, r)`. -/
theorem broadcastTo_group_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 ⟨0, Nat.one_pos⟩ q r) := by
  refine broadcastTo_apply x h _ _ fun d => ?_
  match d with
  | ⟨0, _⟩ =>
    show (0 : ℕ) = if (1 : ℕ) = 1 then 0 else p.val
    rw [if_pos rfl]
  | ⟨1, _⟩ =>
    show q.val = if b = 1 then 0 else q.val
    split_ifs with h1
    · have := q.isLt; omega
    · rfl
  | ⟨2, _⟩ =>
    show r.val = if c = 1 then 0 else r.val
    split_ifs with h1
    · have := r.isLt; omega
    · rfl

/-- The lane sum of a rank-3 array at the exact extended reals: at `(p, q)` the sum over `k` of entry `(p, q, k)`. -/
theorem sum_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun d => Fin.ext ?_)
  match d with
  | ⟨0, _⟩ => rfl
  | ⟨1, _⟩ => rfl
  | ⟨2, _⟩ => rfl

/-- The lane maximum of a rank-3 array at the exact extended reals: at `(p, q)` the fold of `max`, from the value of the
    starting pattern, over `k` of entry `(p, q, k)`. -/
theorem max_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  refine congrArg (Finset.fold max (Ideal.ofBits .f32 acc) · Finset.univ) (funext fun k => congrArg src (funext fun d => Fin.ext ?_))
  match d with
  | ⟨0, _⟩ => rfl
  | ⟨1, _⟩ => rfl
  | ⟨2, _⟩ => rfl

/-- The row sum of a rank-2 array at the exact extended reals: at `p` the sum over `k` of entry `(p, k)`. -/
theorem sum_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.LibRank3

end
-- ==== Proof.LibMatmulNT.lean ====
/-
  A matrix product against a transposed right factor, read at an index at the exact extended reals: a general lemma.

  With dimension numbers that contract axis 1 of an `[M, K]` left factor with axis 1 of an `[N, K]` right factor (no
  batch axes; the result `[M, N]`), and a zero accumulator, entry `(p, q)` of the product is the sum over `e` of
  `lhs (p, e) * rhs (q, e)`: row `p` of the left factor against row `q` of the right one.
-/
import Idealize.ShloMosaic.PureOps.Ideal
import Idealize.ShloMosaic.PureOps.Ideal.Laws
import Idealize.ShloMosaic.Lib.ValueIdx

noncomputable section

namespace Cert.LibMatmulNT

open Idealize.ShloMosaic Idealize.ShloMosaic.ValueIdx

variable {M N K : ℕ}

/-- The dimension numbers "rows against rows": contract axis 1 with axis 1, keep axis 0 of each factor, no batch. -/
abbrev dims (wf : DotDims.WF (⟨2, ![M, K]⟩ : Shape) (⟨2, ![N, K]⟩ : Shape) (⟨2, ![M, N]⟩ : Shape) [1] [1] [0] [0] [] []) :
    DotDims (⟨2, ![M, K]⟩ : Shape) (⟨2, ![N, K]⟩ : Shape) (⟨2, ![M, N]⟩ : Shape) where
  lhsContracting := [1]
  rhsContracting := [1]
  lhsNonContracting := [0]
  rhsNonContracting := [0]
  lhsBatch := []
  rhsBatch := []
  wf := wf

variable (wf : DotDims.WF (⟨2, ![M, K]⟩ : Shape) (⟨2, ![N, K]⟩ : Shape) (⟨2, ![M, N]⟩ : Shape) [1] [1] [0] [0] [] [])

/-- The left index keeps the result's row coordinate on its own row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index puts the result's column coordinate on its own row axis. -/
theorem rhsIdx_row (j : (⟨2, ![M, N]⟩ : Shape).Idx) (k : (dims wf).contr.Idx) :
    ((dims wf).rhsIdx j k 0).val = (j 1).val := by
  unfold DotDims.rhsIdx
  rw [dif_neg (show ¬(0 : Fin (⟨2, ![N, K]⟩ : Shape).rank) ∈ (dims wf).rhsBatch from List.not_mem_nil),
    dif_pos (show (0 : Fin (⟨2, ![N, K]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(q, e)`. -/
theorem rhsIdx_eq (p : Fin M) (q : Fin N) (e : Fin K) :
    (dims wf).rhsIdx (ix2 p q) ((contrEquiv1 (dims wf) K rfl rfl).symm e) = ix2 q e := by
  have he := contrEquiv1_symm_val (dims wf) K rfl rfl e
  funext a
  apply Fin.ext
  match a with
  | ⟨0, _⟩ => exact rhsIdx_row wf _ _
  | ⟨1, _⟩ => exact ((dims wf).rhsIdx_val_of_single rfl _ _).trans he

/-- Entry `(p, q)` of the product into a zero accumulator: row `p` of `lhs` against row `q` of `rhs`. -/
theorem matmul_zero_apply {φ₁ φ₂ : FTy} (prec : Option ContractPrecision)
    (lhs : FVec Ideal (⟨2, ![M, K]⟩ : Shape) φ₁) (rhs : FVec Ideal (⟨2, ![N, K]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 q e) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNT

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.GraphBlock.lean ====
/-
  The graph residual block, one batch slab at a time, as plain functions of indices over the extended reals.

  A slab is a matrix of 1723 vertex rows. Every stage but one acts on each row by itself: the layer normalisation
  with its clamp at zero (subtract the row's mean, divide by the square root of the mean squared deviation plus a
  small constant, scale and shift per column, then take the maximum with zero), and the dense layers (a row against
  the rows or the columns of a weight matrix, plus a bias). The one stage that mixes rows is the neighbourhood sum:
  row n of the result is the sum over vertices m of the adjacency entry (n, m) times row m of the support matrix.
  The block's value is the slab plus the last dense layer's output.
-/
import Idealize.ShloMosaic.PureOps.Ideal
import Idealize.ShloMosaic.PureOps.Ideal.Laws
import Idealize.ShloMosaic.Lib.ValueIdx

noncomputable section

namespace Cert.GraphBlock

open Idealize.ShloMosaic Idealize.ShloMosaic.ValueIdx

/-- The mean of a row, as the sum of its entries divided by the constant d (the row's length as a float). -/
def rowMean {K : ℕ} (d : EReal) (v : Fin K → EReal) : EReal := Ideal.div (∑ k, v k) d

/-- A row minus its mean. -/
def centred {K : ℕ} (d : EReal) (v : Fin K → EReal) (k : Fin K) : EReal := v k - rowMean d v

/-- The mean squared deviation of a row from its mean. -/
def rowVar {K : ℕ} (d : EReal) (v : Fin K → EReal) : EReal := rowMean d fun k => centred d v k * centred d v k

/-- Layer normalisation of a row followed by the clamp at zero:
    max (w k * ((v k - mean) / sqrt (var + eps)) + b k, 0), with eps and 0 the float words the programs carry. -/
def normClamp {K : ℕ} (d : EReal) (w b v : Fin K → EReal) (k : Fin K) : EReal :=
  max (w k * Ideal.div (centred d v k) (Ideal.sqrt (rowVar d v + Ideal.ofBits .f32 0x2B8CBCCC#32)) + b k)
    (Ideal.ofBits .f32 0x00000000#32)

/-- A dense layer whose weight matrix is stored output-major: entry h is the row against row h of W, plus the bias. -/
def denseRows {K N : ℕ} (W : Fin N → Fin K → EReal) (bias : Fin N → EReal) (v : Fin K → EReal) (h : Fin N) : EReal :=
  (∑ c, v c * W h c) + bias h

/-- A row against the columns of a weight matrix stored input-major, no bias. -/
def denseCols {K N : ℕ} (W : Fin K → Fin N → EReal) (v : Fin K → EReal) (k : Fin N) : EReal :=
  ∑ h, v h * W h k

/-- The neighbourhood sum: row n is the adjacency row n against the support matrix, plus the bias. -/
def neighbourSum {V N : ℕ} (A : Fin V → Fin V → EReal) (bias : Fin N → EReal) (S : Fin V → Fin N → EReal)
    (n : Fin V) (k : Fin N) : EReal :=
  (∑ m, A n m * S m k) + bias k

/-- The twelve weight arrays of the block. -/
structure Weights where
  preW : Fin 512 → EReal
  preB : Fin 512 → EReal
  lin1W : Fin 256 → Fin 512 → EReal
  lin1B : Fin 256 → EReal
  n1W : Fin 256 → EReal
  n1B : Fin 256 → EReal
  convW : Fin 256 → Fin 256 → EReal
  convB : Fin 256 → EReal
  n2W : Fin 256 → EReal
  n2B : Fin 256 → EReal
  lin2W : Fin 512 → Fin 256 → EReal
  lin2B : Fin 512 → EReal

/-- The float words for the row lengths 512 and 256. -/
abbrev len512 : EReal := Ideal.ofBits .f32 0x44000000#32
abbrev len256 : EReal := Ideal.ofBits .f32 0x43800000#32

variable (P : Weights) (X : Fin 1723 → Fin 512 → EReal) (A : Fin 1723 → Fin 1723 → EReal)

/-- The slab after the first normalisation and clamp. -/
def stage0 (n : Fin 1723) : Fin 512 → EReal := normClamp len512 P.preW P.preB (X n)
/-- After the first dense layer (512 to 256). -/
def stage1 (n : Fin 1723) : Fin 256 → EReal := denseRows P.lin1W P.lin1B (stage0 P X n)
/-- After the second normalisation and clamp. -/
def stage1c (n : Fin 1723) : Fin 256 → EReal := normClamp len256 P.n1W P.n1B (stage1 P X n)
/-- The support matrix: each row against the convolution weight. -/
def support (n : Fin 1723) : Fin 256 → EReal := denseCols P.convW (stage1c P X n)
/-- After the neighbourhood sum. -/
def stage2 (n : Fin 1723) : Fin 256 → EReal := neighbourSum A P.convB (support P X) n
/-- After the third normalisation and clamp. -/
def stage2c (n : Fin 1723) : Fin 256 → EReal := normClamp len256 P.n2W P.n2B (stage2 P X A n)
/-- After the last dense layer (256 to 512). -/
def stage3 (n : Fin 1723) : Fin 512 → EReal := denseRows P.lin2W P.lin2B (stage2c P X A n)
/-- The block's value on the slab: the slab plus the last dense layer's output. -/
def slabOut (n : Fin 1723) (c : Fin 512) : EReal := X n c + stage3 P X A n c

/-- The weights read off the twelve weight arrays. -/
def weightsOf (pw pb : (⟨1, ![512]⟩ : Shape).Idx → EReal) (w1 : (⟨2, ![256, 512]⟩ : Shape).Idx → EReal)
    (b1 g1 h1 : (⟨1, ![256]⟩ : Shape).Idx → EReal) (wc : (⟨2, ![256, 256]⟩ : Shape).Idx → EReal)
    (bc g2 h2 : (⟨1, ![256]⟩ : Shape).Idx → EReal) (w2 : (⟨2, ![512, 256]⟩ : Shape).Idx → EReal)
    (b2 : (⟨1, ![512]⟩ : Shape).Idx → EReal) : Weights where
  preW := fun c => pw (ix1 c)
  preB := fun c => pb (ix1 c)
  lin1W := fun h c => w1 (ix2 h c)
  lin1B := fun h => b1 (ix1 h)
  n1W := fun h => g1 (ix1 h)
  n1B := fun h => h1 (ix1 h)
  convW := fun h k => wc (ix2 h k)
  convB := fun k => bc (ix1 k)
  n2W := fun k => g2 (ix1 k)
  n2B := fun k => h2 (ix1 k)
  lin2W := fun c h => w2 (ix2 c h)
  lin2B := fun c => b2 (ix1 c)

/-- The whole result array as one function of the fourteen argument arrays: at (b, n, c) the block's value on
    batch b's slab of x with batch b's adjacency matrix. -/
def result (x : (⟨3, ![32, 1723, 512]⟩ : Shape).Idx → EReal) (adj : (⟨3, ![32, 1723, 1723]⟩ : Shape).Idx → EReal)
    (pw pb : (⟨1, ![512]⟩ : Shape).Idx → EReal) (w1 : (⟨2, ![256, 512]⟩ : Shape).Idx → EReal)
    (b1 g1 h1 : (⟨1, ![256]⟩ : Shape).Idx → EReal) (wc : (⟨2, ![256, 256]⟩ : Shape).Idx → EReal)
    (bc g2 h2 : (⟨1, ![256]⟩ : Shape).Idx → EReal) (w2 : (⟨2, ![512, 256]⟩ : Shape).Idx → EReal)
    (b2 : (⟨1, ![512]⟩ : Shape).Idx → EReal) : (⟨3, ![32, 1723, 512]⟩ : Shape).Idx → EReal :=
  fun i => slabOut (weightsOf pw pb w1 b1 g1 h1 wc bc g2 h2 w2 b2)
    (fun n c => x (ix3 (i 0) n c)) (fun n m => adj (ix3 (i 0) n m)) (i 1) (i 2)

end Cert.GraphBlock

end
-- ==== Proof.SlabOps.lean ====
/-
  The vector operations a slab goes through, read at one entry at the exact extended reals.

  A slab is an [a, K] array. Its row statistics are kept as [a, 1] columns: the row sums cast to a column and divided
  by the row length give the mean column; a column broadcast back over the lanes meets the slab entry by entry. A
  per-column weight [K] is cast to a row [1, K] and broadcast over the rows. Each lemma reads one such composite at
  (p, k) in terms of its operands at (p, k), (p, 0) or k.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«119696_j40415642255555_2_alg».proof.Proof.LibColumnBroadcast
import proofs.«119696_j40415642255555_2_alg».proof.Proof.LibUnitAxes
import proofs.«119696_j40415642255555_2_alg».proof.Proof.LibRank3Layout
import proofs.«119696_j40415642255555_2_alg».proof.Proof.LibMatmulNT
import proofs.«119696_j40415642255555_2_alg».proof.Proof.LibMatmulNN
import proofs.«119696_j40415642255555_2_alg».proof.Proof.GraphBlock

noncomputable section

namespace Cert.SlabOps

open Idealize.ShloMosaic Idealize.ShloMosaic.ValueIdx Cert.GraphBlock

variable {a K N : ℕ}

/-- The square root of an array, entry by entry. -/
theorem sqrt_apply {s : Shape} {φ : FTy} (x : FVec Ideal s φ) (i : s.Idx) : sqrt x i = Ideal.sqrt (x i) := rfl

/-- The mean column of a slab: entry (p, 0) is the mean of row p. -/
theorem meanColumn_apply (v : FVec Ideal ⟨2, ![a, K]⟩ .f32) (acc d : BitVec 32)
    (hr : (⟨2, ![a, K]⟩ : Shape).Reduces [1] ⟨1, ![a]⟩) (hφ : FKind.Formats .f32)
    (hacc : acc = FKind.add.neutral .f32 hφ)
    (hc : (⟨1, ![a]⟩ : Shape).ShapeCasts ⟨2, ![a, 1]⟩) (p : Fin a) :
    divf (shapeCast ⟨2, ![a, 1]⟩ (multiReduction .add [1] ⟨1, ![a]⟩ v acc hr hφ hacc) hc)
        (broadcast ⟨2, ![a, 1]⟩ (Scalar.ofBits (F := Ideal) .f32 d)) (ix2 p (0 : Fin 1))
      = rowMean (Ideal.ofBits .f32 d) fun k => v (ix2 p k) := by
  rw [divf_apply, Cert.Layout.shapeCast_a_a1_apply, Cert.LibRank3.sum_row_apply]
  rfl

/-- A slab minus a column broadcast over its lanes: entry (p, k) is the slab's minus the column's at row p. -/
theorem minusColumn_apply (v : FVec Ideal ⟨2, ![a, K]⟩ .f32) (M : FVec Ideal ⟨2, ![a, 1]⟩ .f32)
    (hb : (⟨2, ![a, 1]⟩ : Shape).Broadcasts ⟨2, ![a, K]⟩) (p : Fin a) (k : Fin K) :
    subf v (broadcastTo ⟨2, ![a, K]⟩ M hb) (ix2 p k) = v (ix2 p k) - M (ix2 p (0 : Fin 1)) := by
  rw [subf_apply, Cert.Layout.broadcastTo_a1_ab_apply]

/-- A per-column weight cast to a row and broadcast over the rows: entry (p, k) is the weight at k. -/
theorem rowWeight_apply (w : (⟨1, ![K]⟩ : Shape).Idx → EReal) (hw : (⟨1, ![K]⟩ : Shape).ShapeCasts ⟨2, ![1, K]⟩)
    (hbw : (⟨2, ![1, K]⟩ : Shape).Broadcasts ⟨2, ![a, K]⟩) (p : Fin a) (k : Fin K) :
    broadcastTo ⟨2, ![a, K]⟩ (shapeCast ⟨2, ![1, K]⟩ w hw) hbw (ix2 p k) = w (ix1 k) := by
  rw [broadcastTo_1b_ab_apply, shapeCast_a_1a_apply]

/-- The tail of the normalisation: the centred slab divided by the square root of the variance column plus a
    constant, scaled and shifted per column, clamped below by a constant. -/
theorem scaleShiftClamp_apply (C : FVec Ideal ⟨2, ![a, K]⟩ .f32) (VC : FVec Ideal ⟨2, ![a, 1]⟩ .f32)
    (w b : (⟨1, ![K]⟩ : Shape).Idx → EReal) (e z : BitVec 32)
    (hb : (⟨2, ![a, 1]⟩ : Shape).Broadcasts ⟨2, ![a, K]⟩)
    (hw : (⟨1, ![K]⟩ : Shape).ShapeCasts ⟨2, ![1, K]⟩) (hbw : (⟨2, ![1, K]⟩ : Shape).Broadcasts ⟨2, ![a, K]⟩)
    (p : Fin a) (k : Fin K) :
    maximumf
        (addf
          (mulf (broadcastTo ⟨2, ![a, K]⟩ (shapeCast ⟨2, ![1, K]⟩ w hw) hbw)
            (divf C (broadcastTo ⟨2, ![a, K]⟩
              (sqrt (addf VC (broadcast ⟨2, ![a, 1]⟩ (Scalar.ofBits (F := Ideal) .f32 e)))) hb)))
          (broadcastTo ⟨2, ![a, K]⟩ (shapeCast ⟨2, ![1, K]⟩ b hw) hbw))
        (broadcast ⟨2, ![a, K]⟩ (Scalar.ofBits (F := Ideal) .f32 z)) (ix2 p k)
      = max (w (ix1 k) * Ideal.div (C (ix2 p k)) (Ideal.sqrt (VC (ix2 p (0 : Fin 1)) + Ideal.ofBits .f32 e)) + b (ix1 k))
          (Ideal.ofBits .f32 z) := by
  rw [maximumf_apply, addf_apply, mulf_apply, divf_apply, rowWeight_apply, rowWeight_apply,
    Cert.Layout.broadcastTo_a1_ab_apply, sqrt_apply, addf_apply]
  rfl

/-- A product against a weight stored output-major, plus a bias row: entry (p, h) is row p against row h of the
    weight, plus the bias at h. -/
theorem denseRows_apply (wf : DotDims.WF (⟨2, ![a, K]⟩ : Shape) (⟨2, ![N, K]⟩ : Shape) (⟨2, ![a, N]⟩ : Shape) [1] [1] [0] [0] [] [])
    (prec : Option ContractPrecision) (v : FVec Ideal ⟨2, ![a, K]⟩ .f32) (W : FVec Ideal ⟨2, ![N, K]⟩ .f32)
    (bias : (⟨1, ![N]⟩ : Shape).Idx → EReal)
    (hw : (⟨1, ![N]⟩ : Shape).ShapeCasts ⟨2, ![1, N]⟩) (hbw : (⟨2, ![1, N]⟩ : Shape).Broadcasts ⟨2, ![a, N]⟩)
    (p : Fin a) (h : Fin N) :
    addf (matmul (Cert.LibMatmulNT.dims wf) prec v W (constant (F := Ideal) ⟨2, ![a, N]⟩ .f32 0x00000000#32))
        (broadcastTo ⟨2, ![a, N]⟩ (shapeCast ⟨2, ![1, N]⟩ bias hw) hbw) (ix2 p h)
      = denseRows (fun h c => W (ix2 h c)) (fun h => bias (ix1 h)) (fun c => v (ix2 p c)) h := by
  rw [addf_apply, rowWeight_apply]
  exact congrArg (· + bias (ix1 h)) (Cert.LibMatmulNT.matmul_zero_apply wf prec v W p h)

/-- A plain product against a weight stored input-major: entry (p, k) is row p against column k of the weight. -/
theorem denseCols_apply (wf : DotDims.WF (⟨2, ![a, K]⟩ : Shape) (⟨2, ![K, N]⟩ : Shape) (⟨2, ![a, N]⟩ : Shape) [1] [0] [0] [1] [] [])
    (prec : Option ContractPrecision) (v : FVec Ideal ⟨2, ![a, K]⟩ .f32) (W : FVec Ideal ⟨2, ![K, N]⟩ .f32)
    (p : Fin a) (k : Fin N) :
    matmul (Cert.LibMatmulNN.dims wf) prec v W (constant (F := Ideal) ⟨2, ![a, N]⟩ .f32 0x00000000#32) (ix2 p k)
      = denseCols (fun h k => W (ix2 h k)) (fun h => v (ix2 p h)) k :=
  Cert.LibMatmulNN.matmul_zero_apply wf prec v W p k

/-- A product of an [V, V] matrix against an [V, N] matrix plus a bias row: entry (p, k) is row p of the left factor
    against column k of the right one, plus the bias at k. -/
theorem neighbourSum_apply {V : ℕ}
    (wf : DotDims.WF (⟨2, ![V, V]⟩ : Shape) (⟨2, ![V, N]⟩ : Shape) (⟨2, ![V, N]⟩ : Shape) [1] [0] [0] [1] [] [])
    (prec : Option ContractPrecision) (L : FVec Ideal ⟨2, ![V, V]⟩ .f32) (R : FVec Ideal ⟨2, ![V, N]⟩ .f32)
    (bias : (⟨1, ![N]⟩ : Shape).Idx → EReal)
    (hw : (⟨1, ![N]⟩ : Shape).ShapeCasts ⟨2, ![1, N]⟩) (hbw : (⟨2, ![1, N]⟩ : Shape).Broadcasts ⟨2, ![V, N]⟩)
    (p : Fin V) (k : Fin N) :
    addf (matmul (Cert.LibMatmulNN.dims wf) prec L R (constant (F := Ideal) ⟨2, ![V, N]⟩ .f32 0x00000000#32))
        (broadcastTo ⟨2, ![V, N]⟩ (shapeCast ⟨2, ![1, N]⟩ bias hw) hbw) (ix2 p k)
      = neighbourSum (fun n m => L (ix2 n m)) (fun k => bias (ix1 k)) (fun m k => R (ix2 m k)) p k := by
  rw [addf_apply, rowWeight_apply]
  exact congrArg (· + bias (ix1 k)) (Cert.LibMatmulNN.matmul_zero_apply wf prec L R p k)

/-! ## The same composites when the slab's rows are known to be given rows -/

/-- The mean column of a slab whose row p is Y. -/
theorem meanColumn_of (Y : Fin K → EReal) (v : FVec Ideal ⟨2, ![a, K]⟩ .f32) (acc d : BitVec 32)
    (hr : (⟨2, ![a, K]⟩ : Shape).Reduces [1] ⟨1, ![a]⟩) (hφ : FKind.Formats .f32)
    (hacc : acc = FKind.add.neutral .f32 hφ)
    (hc : (⟨1, ![a]⟩ : Shape).ShapeCasts ⟨2, ![a, 1]⟩) (p : Fin a) (hv : ∀ k, v (ix2 p k) = Y k) :
    divf (shapeCast ⟨2, ![a, 1]⟩ (multiReduction .add [1] ⟨1, ![a]⟩ v acc hr hφ hacc) hc)
        (broadcast ⟨2, ![a, 1]⟩ (Scalar.ofBits (F := Ideal) .f32 d)) (ix2 p (0 : Fin 1))
      = rowMean (Ideal.ofBits .f32 d) Y :=
  (meanColumn_apply v acc d hr hφ hacc hc p).trans (congrArg (rowMean _) (funext hv))

/-- A slab whose row p is Y, minus a column that holds Y's mean at row p, is Y centred. -/
theorem centred_of (Y : Fin K → EReal) (dd : EReal) (v : FVec Ideal ⟨2, ![a, K]⟩ .f32) (M : FVec Ideal ⟨2, ![a, 1]⟩ .f32)
    (hb : (⟨2, ![a, 1]⟩ : Shape).Broadcasts ⟨2, ![a, K]⟩) (p : Fin a)
    (hv : ∀ k, v (ix2 p k) = Y k) (hM : M (ix2 p (0 : Fin 1)) = rowMean dd Y) (k : Fin K) :
    subf v (broadcastTo ⟨2, ![a, K]⟩ M hb) (ix2 p k) = centred dd Y k := by
  rw [minusColumn_apply, hv, hM]
  rfl

/-- The mean column of the squares of a slab whose row p is Y centred: the variance of Y. -/
theorem varColumn_of (Y : Fin K → EReal) (C : FVec Ideal ⟨2, ![a, K]⟩ .f32) (acc d : BitVec 32)
    (hr : (⟨2, ![a, K]⟩ : Shape).Reduces [1] ⟨1, ![a]⟩) (hφ : FKind.Formats .f32)
    (hacc : acc = FKind.add.neutral .f32 hφ)
    (hc : (⟨1, ![a]⟩ : Shape).ShapeCasts ⟨2, ![a, 1]⟩) (p : Fin a)
    (hC : ∀ k, C (ix2 p k) = centred (Ideal.ofBits .f32 d) Y k) :
    divf (shapeCast ⟨2, ![a, 1]⟩ (multiReduction .add [1] ⟨1, ![a]⟩ (mulf C C) acc hr hφ hacc) hc)
        (broadcast ⟨2, ![a, 1]⟩ (Scalar.ofBits (F := Ideal) .f32 d)) (ix2 p (0 : Fin 1))
      = rowVar (Ideal.ofBits .f32 d) Y :=
  meanColumn_of (fun k => centred (Ideal.ofBits .f32 d) Y k * centred (Ideal.ofBits .f32 d) Y k) (mulf C C) acc d hr hφ hacc hc p
    fun k => by rw [mulf_apply, hC]

/-- The tail of the normalisation on a slab whose row p is Y centred, with a variance column that holds Y's
    variance at row p: the normalised, clamped row. -/
theorem normClamp_of (Y : Fin K → EReal) (dd : EReal) (C : FVec Ideal ⟨2, ![a, K]⟩ .f32) (VC : FVec Ideal ⟨2, ![a, 1]⟩ .f32)
    (w b : (⟨1, ![K]⟩ : Shape).Idx → EReal)
    (hb : (⟨2, ![a, 1]⟩ : Shape).Broadcasts ⟨2, ![a, K]⟩)
    (hw : (⟨1, ![K]⟩ : Shape).ShapeCasts ⟨2, ![1, K]⟩) (hbw : (⟨2, ![1, K]⟩ : Shape).Broadcasts ⟨2, ![a, K]⟩)
    (p : Fin a) (hC : ∀ k, C (ix2 p k) = centred dd Y k) (hVC : VC (ix2 p (0 : Fin 1)) = rowVar dd Y) (k : Fin K) :
    maximumf
        (addf
          (mulf (broadcastTo ⟨2, ![a, K]⟩ (shapeCast ⟨2, ![1, K]⟩ w hw) hbw)
            (divf C (broadcastTo ⟨2, ![a, K]⟩
              (sqrt (addf VC (broadcast ⟨2, ![a, 1]⟩ (Scalar.ofBits (F := Ideal) .f32 0x2B8CBCCC#32)))) hb)))
          (broadcastTo ⟨2, ![a, K]⟩ (shapeCast ⟨2, ![1, K]⟩ b hw) hbw))
        (broadcast ⟨2, ![a, K]⟩ (Scalar.ofBits (F := Ideal) .f32 0x00000000#32)) (ix2 p k)
      = normClamp dd (fun k => w (ix1 k)) (fun k => b (ix1 k)) Y k := by
  rw [scaleShiftClamp_apply, hC, hVC]
  rfl

/-- The whole normalisation and clamp of a slab whose row p is Y. -/
theorem normClampWhole_of (Y : Fin K → EReal) (v : FVec Ideal ⟨2, ![a, K]⟩ .f32) (acc acc' d : BitVec 32)
    (w b : (⟨1, ![K]⟩ : Shape).Idx → EReal)
    (hr : (⟨2, ![a, K]⟩ : Shape).Reduces [1] ⟨1, ![a]⟩) (hφ hφ' : FKind.Formats .f32)
    (hacc : acc = FKind.add.neutral .f32 hφ) (hacc' : acc' = FKind.add.neutral .f32 hφ')
    (hc : (⟨1, ![a]⟩ : Shape).ShapeCasts ⟨2, ![a, 1]⟩)
    (hb : (⟨2, ![a, 1]⟩ : Shape).Broadcasts ⟨2, ![a, K]⟩)
    (hw : (⟨1, ![K]⟩ : Shape).ShapeCasts ⟨2, ![1, K]⟩) (hbw : (⟨2, ![1, K]⟩ : Shape).Broadcasts ⟨2, ![a, K]⟩)
    (p : Fin a) (hv : ∀ k, v (ix2 p k) = Y k) (k : Fin K) :
    maximumf
        (addf
          (mulf (broadcastTo ⟨2, ![a, K]⟩ (shapeCast ⟨2, ![1, K]⟩ w hw) hbw)
            (divf
              (subf v (broadcastTo ⟨2, ![a, K]⟩
                (divf (shapeCast ⟨2, ![a, 1]⟩ (multiReduction .add [1] ⟨1, ![a]⟩ v acc hr hφ hacc) hc)
                  (broadcast ⟨2, ![a, 1]⟩ (Scalar.ofBits (F := Ideal) .f32 d))) hb))
              (broadcastTo ⟨2, ![a, K]⟩
                (sqrt (addf
                  (divf (shapeCast ⟨2, ![a, 1]⟩ (multiReduction .add [1] ⟨1, ![a]⟩
                      (mulf
                        (subf v (broadcastTo ⟨2, ![a, K]⟩
                          (divf (shapeCast ⟨2, ![a, 1]⟩ (multiReduction .add [1] ⟨1, ![a]⟩ v acc hr hφ hacc) hc)
                            (broadcast ⟨2, ![a, 1]⟩ (Scalar.ofBits (F := Ideal) .f32 d))) hb))
                        (subf v (broadcastTo ⟨2, ![a, K]⟩
                          (divf (shapeCast ⟨2, ![a, 1]⟩ (multiReduction .add [1] ⟨1, ![a]⟩ v acc hr hφ hacc) hc)
                            (broadcast ⟨2, ![a, 1]⟩ (Scalar.ofBits (F := Ideal) .f32 d))) hb)))
                      acc' hr hφ' hacc') hc)
                    (broadcast ⟨2, ![a, 1]⟩ (Scalar.ofBits (F := Ideal) .f32 d)))
                  (broadcast ⟨2, ![a, 1]⟩ (Scalar.ofBits (F := Ideal) .f32 0x2B8CBCCC#32)))) hb)))
          (broadcastTo ⟨2, ![a, K]⟩ (shapeCast ⟨2, ![1, K]⟩ b hw) hbw))
        (broadcast ⟨2, ![a, K]⟩ (Scalar.ofBits (F := Ideal) .f32 0x00000000#32)) (ix2 p k)
      = normClamp (Ideal.ofBits .f32 d) (fun k => w (ix1 k)) (fun k => b (ix1 k)) Y k :=
  have hC : ∀ k, (subf v (broadcastTo ⟨2, ![a, K]⟩
      (divf (shapeCast ⟨2, ![a, 1]⟩ (multiReduction .add [1] ⟨1, ![a]⟩ v acc hr hφ hacc) hc)
        (broadcast ⟨2, ![a, 1]⟩ (Scalar.ofBits (F := Ideal) .f32 d))) hb)) (ix2 p k)
        = centred (Ideal.ofBits .f32 d) Y k :=
    centred_of Y _ v _ hb p hv (meanColumn_of Y v acc d hr hφ hacc hc p hv)
  normClamp_of Y _ _ _ w b hb hw hbw p hC (varColumn_of Y _ acc' d hr hφ' hacc' hc p hC) k

end Cert.SlabOps

end
-- ==== Proof.KernelSlab.lean ====
/-
  The kernel body's values on one batch slab, read at an entry.

  At a grid point the body loads the slab of x as a [1, 1723, 512] block and the adjacency matrix as a
  [1, 1723, 1723] block, drops the unit axis, and runs the block's stages on [1723, K] arrays with the row statistics
  kept as [1723, 1] columns. Each lemma reads one of the body's named values at (n, k) as the corresponding row
  function of the loaded blocks.
-/
import proofs.«119696_j40415642255555_2_alg».proof.Proof.Gen.KernelIdeal.Skeleton
import proofs.«119696_j40415642255555_2_alg».proof.Proof.SlabOps
import Idealize.ShloMosaic.Lib.ValueLayout

set_option maxRecDepth 16384

noncomputable section

namespace Cert.KernelSlab

open Cert.KernelIdeal Cert.KernelIdeal.Gen Idealize.ShloMosaic Idealize.ShloMosaic.ValueIdx Cert.GraphBlock

/-- The loaded slab with its unit axis dropped: entry (n, c) is the block's entry (0, n, c). -/
theorem slab_apply (v0 : Vec Ideal S1x1723x512 .f32) (n : Fin 1723) (c : Fin 512) :
    k0_pay2 v0 (ix2 n c) = v0 (ix3 (0 : Fin 1) n c) :=
  shapeCast_1ab_ab_apply v0 shapeCasts_S1x1723x512_S1723x512 n c

/-- Row n after the first normalisation, clamp and dense layer. -/
theorem afterFirstDense_apply (v0 : Vec Ideal S1x1723x512 .f32) (v2 v3 : Vec Ideal S512 .f32) (v28 : Vec Ideal S256x512 .f32)
    (v30 : Vec Ideal S256 .f32) (n : Fin 1723) (h : Fin 256) :
    k0_pay3 v0 v2 v3 v28 v30 (ix2 n h)
      = denseRows (fun h c => v28 (ix2 h c)) (fun h => v30 (ix1 h))
          (normClamp len512 (fun c => v2 (ix1 c)) (fun c => v3 (ix1 c)) (fun c => v0 (ix3 (0 : Fin 1) n c))) h := by
  refine (SlabOps.denseRows_apply dot_S1723x512_S256x512_S1723x256_1_1_0_0_n_n_wf _ _ v28 v30 _ _ n h).trans ?_
  refine congrArg (fun f => denseRows _ _ f h) (funext fun c => ?_)
  exact SlabOps.normClampWhole_of (fun c => v0 (ix3 (0 : Fin 1) n c)) (k0_pay2 v0) _ _ 0x44000000#32 v2 v3 _ _ _ _ _ _ _ _ _ n
    (fun k => slab_apply v0 n k) c

/-- The mean column of the first dense layer's output. -/
theorem meanAfterFirstDense_apply (v0 : Vec Ideal S1x1723x512 .f32) (v2 v3 : Vec Ideal S512 .f32) (v28 : Vec Ideal S256x512 .f32)
    (v30 : Vec Ideal S256 .f32) (n : Fin 1723) :
    k0_pay4 v0 v2 v3 v28 v30 (ix2 n (0 : Fin 1)) = rowMean len256 fun h => k0_pay3 v0 v2 v3 v28 v30 (ix2 n h) :=
  SlabOps.meanColumn_apply (k0_pay3 v0 v2 v3 v28 v30) _ 0x43800000#32 _ _ _ _ n

/-- The slab after the neighbourhood sum, as the body computes it from a slab whose rows are Y1 and a column that
    holds their means. -/
def afterNeighbours (v34 v35 : Vec Ideal S256 .f32) (v60 : Vec Ideal S256x256 .f32) (v62 : Vec Ideal S1x1723x1723 .f32)
    (v65 : Vec Ideal S256 .f32) (Y1 : Fin 1723 → Fin 256 → EReal) (n : Fin 1723) : Fin 256 → EReal :=
  neighbourSum (fun n m => v62 (ix3 (0 : Fin 1) n m)) (fun k => v65 (ix1 k))
    (fun m => denseCols (fun h k => v60 (ix2 h k)) (normClamp len256 (fun h => v34 (ix1 h)) (fun h => v35 (ix1 h)) (Y1 m))) n

/-- A slab whose row p is Y, minus its own mean column, is Y centred. -/
theorem centredOwnMean_of {a K : ℕ} (Y : Fin K → EReal) (v : FVec Ideal ⟨2, ![a, K]⟩ .f32) (acc d : BitVec 32)
    (hr : (⟨2, ![a, K]⟩ : Shape).Reduces [1] ⟨1, ![a]⟩) (hφ : FKind.Formats .f32)
    (hacc : acc = FKind.add.neutral .f32 hφ)
    (hc : (⟨1, ![a]⟩ : Shape).ShapeCasts ⟨2, ![a, 1]⟩)
    (hb : (⟨2, ![a, 1]⟩ : Shape).Broadcasts ⟨2, ![a, K]⟩) (p : Fin a) (hv : ∀ k, v (ix2 p k) = Y k) (k : Fin K) :
    subf v (broadcastTo ⟨2, ![a, K]⟩
        (divf (shapeCast ⟨2, ![a, 1]⟩ (multiReduction .add [1] ⟨1, ![a]⟩ v acc hr hφ hacc) hc)
          (broadcast ⟨2, ![a, 1]⟩ (Scalar.ofBits (F := Ideal) .f32 d))) hb) (ix2 p k)
      = centred (Ideal.ofBits .f32 d) Y k :=
  SlabOps.centred_of Y _ v _ hb p hv (SlabOps.meanColumn_of Y v acc d hr hφ hacc hc p hv) k

/-- The centred slab after the neighbourhood sum. -/
theorem centredAfterNeighbours_apply (v33 : FVec Ideal S1723x256 .f32) (v34 v35 : Vec Ideal S256 .f32) (v39 : FVec Ideal S1723x1 .f32)
    (v60 : Vec Ideal S256x256 .f32) (v62 : Vec Ideal S1x1723x1723 .f32) (v65 : Vec Ideal S256 .f32)
    (Y1 : Fin 1723 → Fin 256 → EReal) (h33 : ∀ m h, v33 (ix2 m h) = Y1 m h)
    (h39 : ∀ m, v39 (ix2 m (0 : Fin 1)) = rowMean len256 (Y1 m)) (n : Fin 1723) (k : Fin 256) :
    k0_pay5 v33 v34 v35 v39 v60 v62 v65 (ix2 n k) = centred len256 (afterNeighbours v34 v35 v60 v62 v65 Y1 n) k := by
  -- the slab after the neighbourhood sum minus its own mean column; its row n is the neighbourhood sum's row n
  refine centredOwnMean_of (afterNeighbours v34 v35 v60 v62 v65 Y1 n) _ _ 0x43800000#32 _ _ _ _ _ n (fun j => ?_) k
  refine (SlabOps.neighbourSum_apply dot_S1723x1723_S1723x256_S1723x256_1_0_0_1_n_n_wf (some .fp32) _ _ v65 _ _ n j).trans ?_
  unfold afterNeighbours
  refine congrArg₂ (fun (L : Fin 1723 → Fin 1723 → EReal) (R : Fin 1723 → Fin 256 → EReal) =>
      neighbourSum L (fun k => v65 (ix1 k)) R n j)
    (funext fun p' => funext fun m => shapeCast_1ab_ab_apply v62 shapeCasts_S1x1723x1723_S1723x1723 p' m)
    (funext fun m => funext fun k' => ?_)
  -- row m of the support matrix: the clamped second normalisation of row m against the convolution weight
  refine (SlabOps.denseCols_apply dot_S1723x256_S256x256_S1723x256_1_0_0_1_n_n_wf (some .fp32) _ v60 m k').trans ?_
  refine congrArg (fun f => denseCols _ f k') (funext fun h => ?_)
  exact SlabOps.normClamp_of (Y1 m) len256 _ _ v34 v35 _ _ _ m
    (fun h => SlabOps.centred_of (Y1 m) len256 v33 v39 _ m (h33 m) (h39 m) h)
    (SlabOps.varColumn_of (Y1 m) _ _ 0x43800000#32 _ _ _ _ m
      (fun h => SlabOps.centred_of (Y1 m) len256 v33 v39 _ m (h33 m) (h39 m) h)) h

/-- The variance column after the neighbourhood sum. -/
theorem varAfterNeighbours_apply (v33 : FVec Ideal S1723x256 .f32) (v34 v35 : Vec Ideal S256 .f32) (v39 : FVec Ideal S1723x1 .f32)
    (v60 : Vec Ideal S256x256 .f32) (v62 : Vec Ideal S1x1723x1723 .f32) (v65 : Vec Ideal S256 .f32)
    (Y1 : Fin 1723 → Fin 256 → EReal) (h33 : ∀ m h, v33 (ix2 m h) = Y1 m h)
    (h39 : ∀ m, v39 (ix2 m (0 : Fin 1)) = rowMean len256 (Y1 m)) (n : Fin 1723) :
    k0_pay6 v33 v34 v35 v39 v60 v62 v65 (ix2 n (0 : Fin 1)) = rowVar len256 (afterNeighbours v34 v35 v60 v62 v65 Y1 n) :=
  SlabOps.varColumn_of (afterNeighbours v34 v35 v60 v62 v65 Y1 n) (k0_pay5 v33 v34 v35 v39 v60 v62 v65) _ 0x43800000#32
    reduces_S1723x256_S1723 (.inl rfl) rfl shapeCasts_S1723_S1723x1 n
    (fun k => centredAfterNeighbours_apply v33 v34 v35 v39 v60 v62 v65 Y1 h33 h39 n k)

/-- The stored block: the slab plus the last dense layer of the third normalisation, with the unit axis put back. -/
theorem stored_apply (v1 : FVec Ideal S1723x512 .f32) (v69 v70 : Vec Ideal S256 .f32) (v76 : FVec Ideal S1723x256 .f32)
    (v81 : FVec Ideal S1723x1 .f32) (v95 : Vec Ideal S512x256 .f32) (v97 : Vec Ideal S512 .f32)
    (Y2 : Fin 1723 → Fin 256 → EReal) (h76 : ∀ n k, v76 (ix2 n k) = centred len256 (Y2 n) k)
    (h81 : ∀ n, v81 (ix2 n (0 : Fin 1)) = rowVar len256 (Y2 n)) (u : Fin 1) (n : Fin 1723) (c : Fin 512) :
    k0_pay1 v1 v69 v70 v76 v81 v95 v97 (ix3 u n c)
      = v1 (ix2 n c) + denseRows (fun c h => v95 (ix2 c h)) (fun c => v97 (ix1 c))
          (normClamp len256 (fun k => v69 (ix1 k)) (fun k => v70 (ix1 k)) (Y2 n)) c := by
  show shapeCast S1x1723x512 (addf v1 _) shapeCasts_S1723x512_S1x1723x512 (ix3 u n c) = _
  rw [shapeCast_ab_1ab_apply, addf_apply]
  refine congrArg (v1 (ix2 n c) + ·) ?_
  refine (SlabOps.denseRows_apply dot_S1723x256_S512x256_S1723x512_1_1_0_0_n_n_wf (some .fp32) _ v95 v97
    shapeCasts_S512_S1x512 broadcasts_S1x512_S1723x512 n c).trans ?_
  refine congrArg (fun f => denseRows _ _ f c) (funext fun k => ?_)
  exact SlabOps.normClamp_of (Y2 n) len256 v76 v81 v69 v70 broadcasts_S1723x1_S1723x256 shapeCasts_S256_S1x256
    broadcasts_S1x256_S1723x256 n (h76 n) (h81 n) k

/-- The whole body on one slab: the stored block at (u, n, c) is the block's value on the loaded slab, with the
    loaded adjacency block and the loaded weights, at (n, c). -/
theorem body_apply (x0 : Vec Ideal S1x1723x512 .f32) (x1 : Vec Ideal S1x1723x1723 .f32) (x2 x3 : Vec Ideal S512 .f32)
    (x4 : Vec Ideal S256x512 .f32) (x5 x6 x7 : Vec Ideal S256 .f32) (x8 : Vec Ideal S256x256 .f32)
    (x9 x10 x11 : Vec Ideal S256 .f32) (x12 : Vec Ideal S512x256 .f32) (x13 : Vec Ideal S512 .f32)
    (u : Fin 1) (n : Fin 1723) (c : Fin 512) :
    k0_pay1 (k0_pay2 x0) x10 x11
        (k0_pay5 (k0_pay3 x0 x2 x3 x4 x5) x6 x7 (k0_pay4 x0 x2 x3 x4 x5) x8 x1 x9)
        (k0_pay6 (k0_pay3 x0 x2 x3 x4 x5) x6 x7 (k0_pay4 x0 x2 x3 x4 x5) x8 x1 x9) x12 x13 (ix3 u n c)
      = slabOut (weightsOf x2 x3 x4 x5 x6 x7 x8 x9 x10 x11 x12 x13) (fun n c => x0 (ix3 (0 : Fin 1) n c))
          (fun n m => x1 (ix3 (0 : Fin 1) n m)) n c := by
  let P := weightsOf x2 x3 x4 x5 x6 x7 x8 x9 x10 x11 x12 x13
  let X : Fin 1723 → Fin 512 → EReal := fun n c => x0 (ix3 (0 : Fin 1) n c)
  let A : Fin 1723 → Fin 1723 → EReal := fun n m => x1 (ix3 (0 : Fin 1) n m)
  have h33 : ∀ m h, k0_pay3 x0 x2 x3 x4 x5 (ix2 m h) = stage1 P X m h :=
    fun m h => afterFirstDense_apply x0 x2 x3 x4 x5 m h
  have h39 : ∀ m, k0_pay4 x0 x2 x3 x4 x5 (ix2 m (0 : Fin 1)) = rowMean len256 (stage1 P X m) :=
    fun m => (meanAfterFirstDense_apply x0 x2 x3 x4 x5 m).trans (congrArg (rowMean len256) (funext (h33 m)))
  refine (stored_apply (k0_pay2 x0) x10 x11 _ _ x12 x13 (stage2 P X A)
    (fun n k => centredAfterNeighbours_apply _ x6 x7 _ x8 x1 x9 (stage1 P X) h33 h39 n k)
    (fun n => varAfterNeighbours_apply _ x6 x7 _ x8 x1 x9 (stage1 P X) h33 h39 n) u n c).trans ?_
  rw [slab_apply]
  rfl

end Cert.KernelSlab

end
-- ==== Proof.KernelWhole.lean ====
/-
  From the blocks to the whole array: after the run the kernel's result array is the block's value, batch by batch.

  The grid has one point per batch. At point t the windows of x, of the adjacency array and of the result are at
  block (t, 0, 0): batch t's whole slab. The twelve weight windows are at block 0 at every point: the whole weight
  array. So what point t writes back is the block's value on batch t's slab, and the 32 written blocks tile the result
  array: the index (b, n, c) lies in the block of point b.
-/
import proofs.«119696_j40415642255555_2_alg».proof.Proof.Gen.KernelIdeal.Value
import proofs.«119696_j40415642255555_2_alg».proof.Proof.KernelSlab

set_option maxRecDepth 16384

noncomputable section

namespace Cert.KernelWhole

open Cert.KernelIdeal Cert.KernelIdeal.Gen Cert.KernelIdeal.Value Idealize.ShloMosaic Idealize.ShloMosaic.TcCoe Idealize.SL.Sem
open Idealize.ShloMosaic.ValueIdx Cert.GraphBlock
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The batch a grid point works on. -/
def batch (t : Fin cfg0.N) : Fin 32 := ⟨t.val, Nat.lt_of_lt_of_eq t.isLt N_0⟩

/-- The printed index maps, decided over the 32 grid points: the three batched windows sit at block (t, 0, 0), the
    weight windows at block 0. -/
theorem idx_facts : ∀ t : Fin cfg0.N, win0_0.index t (0 : Fin 3) = t.val
    ∧ win0_0.index t (1 : Fin 3) = 0
    ∧ win0_0.index t (2 : Fin 3) = 0
    ∧ win0_1.index t (0 : Fin 3) = t.val
    ∧ win0_1.index t (1 : Fin 3) = 0
    ∧ win0_1.index t (2 : Fin 3) = 0
    ∧ win0_14.index t (0 : Fin 3) = t.val
    ∧ win0_14.index t (1 : Fin 3) = 0
    ∧ win0_14.index t (2 : Fin 3) = 0
    ∧ win0_2.index t (0 : Fin 1) = 0
    ∧ win0_3.index t (0 : Fin 1) = 0
    ∧ win0_4.index t (0 : Fin 2) = 0
    ∧ win0_4.index t (1 : Fin 2) = 0
    ∧ win0_5.index t (0 : Fin 1) = 0
    ∧ win0_6.index t (0 : Fin 1) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 1) = 0
    ∧ win0_11.index t (0 : Fin 1) = 0
    ∧ win0_12.index t (0 : Fin 2) = 0
    ∧ win0_12.index t (1 : Fin 2) = 0
    ∧ win0_13.index t (0 : Fin 1) = 0 :=
  (by decide +kernel : ∀ t : Fin grid0.N, _)

/-- The block of x at point t is batch t's slab. -/
theorem slabBlock_apply (c : Dev nD) (t : Fin cfg0.N) (n : Fin 1723) (k : Fin 512) :
    (iblk m c 0 t : Vec Ideal S1x1723x512 .f32) (ix3 (0 : Fin 1) n k) = (V m c main_arg0 : S32x1723x512.Idx → EReal) (ix3 (batch t) n k) := by
  obtain ⟨f0, f1, f2, f3, f4, f5, f6, f7, f8, f9, f10, f11, f12, f13, f14, f15, f16, f17, f18, f19, f20, f21, f22, f23⟩ := idx_facts t
  unfold iblk
  rw [View.read_apply]
  show V m c main_arg0 _ = V m c main_arg0 _
  congr 1
  funext a
  apply Fin.ext
  match a with
    | ⟨0, _⟩ => show win0_0.index t (0 : Fin 3) * 1 + 1 * 0 = t.val; rw [f0]; omega
    | ⟨1, _⟩ => show win0_0.index t (1 : Fin 3) * 1723 + 1 * n.val = n.val; rw [f1]; omega
    | ⟨2, _⟩ => show win0_0.index t (2 : Fin 3) * 512 + 1 * k.val = k.val; rw [f2]; omega

/-- The block of the adjacency array at point t is batch t's matrix. -/
theorem adjBlock_apply (c : Dev nD) (t : Fin cfg0.N) (n : Fin 1723) (k : Fin 1723) :
    (iblk m c 1 t : Vec Ideal S1x1723x1723 .f32) (ix3 (0 : Fin 1) n k) = (V m c main_arg1 : S32x1723x1723.Idx → EReal) (ix3 (batch t) n k) := by
  obtain ⟨f0, f1, f2, f3, f4, f5, f6, f7, f8, f9, f10, f11, f12, f13, f14, f15, f16, f17, f18, f19, f20, f21, f22, f23⟩ := idx_facts t
  unfold iblk
  rw [View.read_apply]
  show V m c main_arg1 _ = V m c main_arg1 _
  congr 1
  funext a
  apply Fin.ext
  match a with
    | ⟨0, _⟩ => show win0_1.index t (0 : Fin 3) * 1 + 1 * 0 = t.val; rw [f3]; omega
    | ⟨1, _⟩ => show win0_1.index t (1 : Fin 3) * 1723 + 1 * n.val = n.val; rw [f4]; omega
    | ⟨2, _⟩ => show win0_1.index t (2 : Fin 3) * 1723 + 1 * k.val = k.val; rw [f5]; omega

/-- Window 2's block at every point is its whole array. -/
theorem block2_eq (c : Dev nD) (t : Fin cfg0.N) : (iblk m c 2 t : Vec Ideal S512 .f32) = (V m c main_arg2 : S512.Idx → EReal) := by
  obtain ⟨f0, f1, f2, f3, f4, f5, f6, f7, f8, f9, f10, f11, f12, f13, f14, f15, f16, f17, f18, f19, f20, f21, f22, f23⟩ := idx_facts t
  funext j
  unfold iblk
  rw [View.read_apply]
  show V m c main_arg2 _ = V m c main_arg2 j
  congr 1
  funext a
  apply Fin.ext
  match a with
    | ⟨0, _⟩ => show win0_2.index t (0 : Fin 1) * 512 + 1 * (j 0).val = (j 0).val; rw [f9]; omega

/-- Window 3's block at every point is its whole array. -/
theorem block3_eq (c : Dev nD) (t : Fin cfg0.N) : (iblk m c 3 t : Vec Ideal S512 .f32) = (V m c main_arg3 : S512.Idx → EReal) := by
  obtain ⟨f0, f1, f2, f3, f4, f5, f6, f7, f8, f9, f10, f11, f12, f13, f14, f15, f16, f17, f18, f19, f20, f21, f22, f23⟩ := idx_facts t
  funext j
  unfold iblk
  rw [View.read_apply]
  show V m c main_arg3 _ = V m c main_arg3 j
  congr 1
  funext a
  apply Fin.ext
  match a with
    | ⟨0, _⟩ => show win0_3.index t (0 : Fin 1) * 512 + 1 * (j 0).val = (j 0).val; rw [f10]; omega

/-- Window 4's block at every point is its whole array. -/
theorem block4_eq (c : Dev nD) (t : Fin cfg0.N) : (iblk m c 4 t : Vec Ideal S256x512 .f32) = (V m c main_arg4 : S256x512.Idx → EReal) := by
  obtain ⟨f0, f1, f2, f3, f4, f5, f6, f7, f8, f9, f10, f11, f12, f13, f14, f15, f16, f17, f18, f19, f20, f21, f22, f23⟩ := idx_facts t
  funext j
  unfold iblk
  rw [View.read_apply]
  show V m c main_arg4 _ = V m c main_arg4 j
  congr 1
  funext a
  apply Fin.ext
  match a with
    | ⟨0, _⟩ => show win0_4.index t (0 : Fin 2) * 256 + 1 * (j 0).val = (j 0).val; rw [f11]; omega
    | ⟨1, _⟩ => show win0_4.index t (1 : Fin 2) * 512 + 1 * (j 1).val = (j 1).val; rw [f12]; omega

/-- Window 5's block at every point is its whole array. -/
theorem block5_eq (c : Dev nD) (t : Fin cfg0.N) : (iblk m c 5 t : Vec Ideal S256 .f32) = (V m c main_arg5 : S256.Idx → EReal) := by
  obtain ⟨f0, f1, f2, f3, f4, f5, f6, f7, f8, f9, f10, f11, f12, f13, f14, f15, f16, f17, f18, f19, f20, f21, f22, f23⟩ := idx_facts t
  funext j
  unfold iblk
  rw [View.read_apply]
  show V m c main_arg5 _ = V m c main_arg5 j
  congr 1
  funext a
  apply Fin.ext
  match a with
    | ⟨0, _⟩ => show win0_5.index t (0 : Fin 1) * 256 + 1 * (j 0).val = (j 0).val; rw [f13]; omega

/-- Window 6's block at every point is its whole array. -/
theorem block6_eq (c : Dev nD) (t : Fin cfg0.N) : (iblk m c 6 t : Vec Ideal S256 .f32) = (V m c main_arg6 : S256.Idx → EReal) := by
  obtain ⟨f0, f1, f2, f3, f4, f5, f6, f7, f8, f9, f10, f11, f12, f13, f14, f15, f16, f17, f18, f19, f20, f21, f22, f23⟩ := idx_facts t
  funext j
  unfold iblk
  rw [View.read_apply]
  show V m c main_arg6 _ = V m c main_arg6 j
  congr 1
  funext a
  apply Fin.ext
  match a with
    | ⟨0, _⟩ => show win0_6.index t (0 : Fin 1) * 256 + 1 * (j 0).val = (j 0).val; rw [f14]; omega

/-- Window 7's block at every point is its whole array. -/
theorem block7_eq (c : Dev nD) (t : Fin cfg0.N) : (iblk m c 7 t : Vec Ideal S256 .f32) = (V m c main_arg7 : S256.Idx → EReal) := by
  obtain ⟨f0, f1, f2, f3, f4, f5, f6, f7, f8, f9, f10, f11, f12, f13, f14, f15, f16, f17, f18, f19, f20, f21, f22, f23⟩ := idx_facts t
  funext j
  unfold iblk
  rw [View.read_apply]
  show V m c main_arg7 _ = V m c main_arg7 j
  congr 1
  funext a
  apply Fin.ext
  match a with
    | ⟨0, _⟩ => show win0_7.index t (0 : Fin 1) * 256 + 1 * (j 0).val = (j 0).val; rw [f15]; omega

/-- Window 8's block at every point is its whole array. -/
theorem block8_eq (c : Dev nD) (t : Fin cfg0.N) : (iblk m c 8 t : Vec Ideal S256x256 .f32) = (V m c main_arg8 : S256x256.Idx → EReal) := by
  obtain ⟨f0, f1, f2, f3, f4, f5, f6, f7, f8, f9, f10, f11, f12, f13, f14, f15, f16, f17, f18, f19, f20, f21, f22, f23⟩ := idx_facts t
  funext j
  unfold iblk
  rw [View.read_apply]
  show V m c main_arg8 _ = V m c main_arg8 j
  congr 1
  funext a
  apply Fin.ext
  match a with
    | ⟨0, _⟩ => show win0_8.index t (0 : Fin 2) * 256 + 1 * (j 0).val = (j 0).val; rw [f16]; omega
    | ⟨1, _⟩ => show win0_8.index t (1 : Fin 2) * 256 + 1 * (j 1).val = (j 1).val; rw [f17]; omega

/-- Window 9's block at every point is its whole array. -/
theorem block9_eq (c : Dev nD) (t : Fin cfg0.N) : (iblk m c 9 t : Vec Ideal S256 .f32) = (V m c main_arg9 : S256.Idx → EReal) := by
  obtain ⟨f0, f1, f2, f3, f4, f5, f6, f7, f8, f9, f10, f11, f12, f13, f14, f15, f16, f17, f18, f19, f20, f21, f22, f23⟩ := idx_facts t
  funext j
  unfold iblk
  rw [View.read_apply]
  show V m c main_arg9 _ = V m c main_arg9 j
  congr 1
  funext a
  apply Fin.ext
  match a with
    | ⟨0, _⟩ => show win0_9.index t (0 : Fin 1) * 256 + 1 * (j 0).val = (j 0).val; rw [f18]; omega

/-- Window 10's block at every point is its whole array. -/
theorem block10_eq (c : Dev nD) (t : Fin cfg0.N) : (iblk m c 10 t : Vec Ideal S256 .f32) = (V m c main_arg10 : S256.Idx → EReal) := by
  obtain ⟨f0, f1, f2, f3, f4, f5, f6, f7, f8, f9, f10, f11, f12, f13, f14, f15, f16, f17, f18, f19, f20, f21, f22, f23⟩ := idx_facts t
  funext j
  unfold iblk
  rw [View.read_apply]
  show V m c main_arg10 _ = V m c main_arg10 j
  congr 1
  funext a
  apply Fin.ext
  match a with
    | ⟨0, _⟩ => show win0_10.index t (0 : Fin 1) * 256 + 1 * (j 0).val = (j 0).val; rw [f19]; omega

/-- Window 11's block at every point is its whole array. -/
theorem block11_eq (c : Dev nD) (t : Fin cfg0.N) : (iblk m c 11 t : Vec Ideal S256 .f32) = (V m c main_arg11 : S256.Idx → EReal) := by
  obtain ⟨f0, f1, f2, f3, f4, f5, f6, f7, f8, f9, f10, f11, f12, f13, f14, f15, f16, f17, f18, f19, f20, f21, f22, f23⟩ := idx_facts t
  funext j
  unfold iblk
  rw [View.read_apply]
  show V m c main_arg11 _ = V m c main_arg11 j
  congr 1
  funext a
  apply Fin.ext
  match a with
    | ⟨0, _⟩ => show win0_11.index t (0 : Fin 1) * 256 + 1 * (j 0).val = (j 0).val; rw [f20]; omega

/-- Window 12's block at every point is its whole array. -/
theorem block12_eq (c : Dev nD) (t : Fin cfg0.N) : (iblk m c 12 t : Vec Ideal S512x256 .f32) = (V m c main_arg12 : S512x256.Idx → EReal) := by
  obtain ⟨f0, f1, f2, f3, f4, f5, f6, f7, f8, f9, f10, f11, f12, f13, f14, f15, f16, f17, f18, f19, f20, f21, f22, f23⟩ := idx_facts t
  funext j
  unfold iblk
  rw [View.read_apply]
  show V m c main_arg12 _ = V m c main_arg12 j
  congr 1
  funext a
  apply Fin.ext
  match a with
    | ⟨0, _⟩ => show win0_12.index t (0 : Fin 2) * 512 + 1 * (j 0).val = (j 0).val; rw [f21]; omega
    | ⟨1, _⟩ => show win0_12.index t (1 : Fin 2) * 256 + 1 * (j 1).val = (j 1).val; rw [f22]; omega

/-- Window 13's block at every point is its whole array. -/
theorem block13_eq (c : Dev nD) (t : Fin cfg0.N) : (iblk m c 13 t : Vec Ideal S512 .f32) = (V m c main_arg13 : S512.Idx → EReal) := by
  obtain ⟨f0, f1, f2, f3, f4, f5, f6, f7, f8, f9, f10, f11, f12, f13, f14, f15, f16, f17, f18, f19, f20, f21, f22, f23⟩ := idx_facts t
  funext j
  unfold iblk
  rw [View.read_apply]
  show V m c main_arg13 _ = V m c main_arg13 j
  congr 1
  funext a
  apply Fin.ext
  match a with
    | ⟨0, _⟩ => show win0_13.index t (0 : Fin 1) * 512 + 1 * (j 0).val = (j 0).val; rw [f23]; omega

/-- The result array as one function of the argument arrays as the region finds them. -/
abbrev whole (c : Dev nD) : Buf (Elt Ideal) ((c : Thread nD τ).loc main_v0) :=
  result (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13)

/-- The result window's block at point t reaches into batch t. -/
theorem outBlock_emb (t : Fin cfg0.N) (u : Fin 1) (n : Fin 1723) (k : Fin 512) :
    (((cfg0.win 14).blk t).view.emb (ix3 u n k) : S32x1723x512.Idx) = ix3 (batch t) n k := by
  obtain ⟨f0, f1, f2, f3, f4, f5, f6, f7, f8, f9, f10, f11, f12, f13, f14, f15, f16, f17, f18, f19, f20, f21, f22, f23⟩ := idx_facts t
  funext a
  apply Fin.ext
  have hu : u.val = 0 := by omega
  match a with
    | ⟨0, _⟩ => show win0_14.index t (0 : Fin 3) * 1 + 1 * u.val = t.val; rw [f6, hu]; omega
    | ⟨1, _⟩ => show win0_14.index t (1 : Fin 3) * 1723 + 1 * n.val = n.val; rw [f7]; omega
    | ⟨2, _⟩ => show win0_14.index t (2 : Fin 3) * 512 + 1 * k.val = k.val; rw [f8]; omega

/-- What point t writes back, entry by entry: the block's value on batch t's slab. -/
theorem flushed_at (c : Dev nD) (t : Fin cfg0.N) (u : Fin 1) (n : Fin 1723) (k : Fin 512) :
    ((dats m 0 c).flushed 14 t : Vec Ideal S1x1723x512 .f32) (ix3 u n k) = whole m c (ix3 (batch t) n k) := by
  rw [flushed14]
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 u n k) = _
  unfold out0_14
  rw [View.canon_unit_zero zeros3]
  simp only [View.ld_unit_zero (S := S1x1723x512) zeros3, View.ld_unit_zero (S := S1x1723x1723) zeros3,
    View.ld_unit_zero (S := S512) zeros1, View.ld_unit_zero (S := S256) zeros1, View.ld_unit_zero (S := S256x512) zeros2,
    View.ld_unit_zero (S := S256x256) zeros2, View.ld_unit_zero (S := S512x256) zeros2]
  refine (Cert.KernelSlab.body_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) u n k).trans ?_
  rw [block2_eq m c t, block3_eq m c t, block4_eq m c t, block5_eq m c t, block6_eq m c t, block7_eq m c t, block8_eq m c t,
    block9_eq m c t, block10_eq m c t, block11_eq m c t, block12_eq m c t, block13_eq m c t]
  simp only [slabBlock_apply m c t, adjBlock_apply m c t]
  rfl

/-- What point t writes back is block t of the whole result. -/
theorem flushed_eq (c : Dev nD) (t : Fin cfg0.N) :
    (dats m 0 c).flushed 14 t = ((cfg0.win 14).blk t).view.read (Elt Ideal) (whole m c) := by
  refine funext fun (j : S1x1723x512.Idx) => ?_
  obtain ⟨u, n, k, rfl⟩ : ∃ (u : Fin 1) (n : Fin 1723) (k : Fin 512), j = ix3 u n k := ⟨j 0, j 1, j 2, eq_ix3 j⟩
  rw [View.read_apply]
  exact (flushed_at m c t u n k).trans (congrArg (whole m c) (outBlock_emb t u n k).symm)

/-- The 32 written blocks cover the result array: (b, n, c) is in point b's block. -/
theorem cover (i : S32x1723x512.Idx) : ∃ t : Fin cfg0.N, (cfg0.win 14).flush t = true ∧ i ∈ ((cfg0.win 14).blk t).view.set := by
  have h0 : (i 0).val < 32 := (i 0).isLt
  have h1 : (i 1).val < 1723 := (i 1).isLt
  have h2 : (i 2).val < 512 := (i 2).isLt
  let t : Fin cfg0.N := ⟨(i 0).val, Nat.lt_of_lt_of_eq h0 N_0.symm⟩
  obtain ⟨f0, f1, f2, f3, f4, f5, f6, f7, f8, f9, f10, f11, f12, f13, f14, f15, f16, f17, f18, f19, f20, f21, f22, f23⟩ := idx_facts t
  refine ⟨t, flush0_14 t, ?_⟩
  show i ∈ ((View.whole main_v0).slice (win0_14.rect t)).set
  rw [View.set_slice_whole, Rect.mem_set_unit]
  intro a
  match a with
    | ⟨0, _⟩ => show win0_14.index t (0 : Fin 3) * 1 ≤ (i 0).val ∧ (i 0).val < win0_14.index t (0 : Fin 3) * 1 + 1; rw [f6]; show (i 0).val * 1 ≤ (i 0).val ∧ (i 0).val < (i 0).val * 1 + 1; omega
    | ⟨1, _⟩ => show win0_14.index t (1 : Fin 3) * 1723 ≤ (i 1).val ∧ (i 1).val < win0_14.index t (1 : Fin 3) * 1723 + 1723; rw [f7]; omega
    | ⟨2, _⟩ => show win0_14.index t (2 : Fin 3) * 512 ≤ (i 2).val ∧ (i 2).val < win0_14.index t (2 : Fin 3) * 512 + 512; rw [f8]; omega

/-- So after the run the result array is the whole result. -/
theorem final (c : Dev nD) : (dats m 0 c).arrAt 14 cfg0.N = whole m c :=
  (dats m 0 c).arrAt_eq_of_cover 14 (whole m c) (fun t _ => flushed_eq m c t) (cover)

/-- The kernel's run, read: the result array at the block's value of the argument arrays, the arguments unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (run_blocks m ρ)

end Cert.KernelWhole

end
-- ==== Proof.ReferenceSlab.lean ====
/-
  The reference program's stages, read at (b, n, c), are the block's stages on batch b's slab.

  The reference works on whole [32, 1723, K] arrays. Read at an index (b, n, c), each of its operations only looks at
  batch b: a row statistic at (b, n), a weight at c, a contraction over the last axis of row (b, n), and, for the
  neighbourhood sum, a contraction over the vertices m of batch b. So each stage at (b, n, ·) is the corresponding
  row function of the previous stage's rows of batch b.
-/
import proofs.«119696_j40415642255555_2_alg».proof.Proof.Gen.ReferenceIdeal.Read
import proofs.«119696_j40415642255555_2_alg».proof.Proof.GraphBlock

set_option maxRecDepth 16384

noncomputable section

namespace Cert.ReferenceSlab

open Cert.ReferenceIdeal Cert.ReferenceIdeal.Read Idealize.ShloMosaic Idealize.ShloMosaic.ValueIdx Cert.GraphBlock

/-- A sum started from the float word zero is the sum. -/
theorem zeroWord_add (s : EReal) : Ideal.ofBits .f32 0x00000000#32 + s = s := by
  rw [Ideal.ofBits_zero_f32, zero_add]

/-! ### The first normalisation (rows of x, length 512) -/

/-- The mean column at (b, n, 0) is the mean of the row. -/
theorem mean_first (x0 : (⟨S32x1723x512, .f32⟩ : BufTy).Contents (Elt Ideal)) (b : Fin 32) (n : Fin 1723) (z : Fin 1) :
    val_main_v3 (F := Ideal) x0 (ix3 b n z) = rowMean len512 (fun k => x0 (ix3 b n k)) := by
  have e : ∀ k : Fin 512, idx_main_v0 (idx_main_v1 (ix3 b n z)) k = ix3 b n k := fun k => funext fun a => Fin.ext (by match a with | ⟨0, _⟩ => rfl | ⟨1, _⟩ => rfl | ⟨2, _⟩ => rfl)
  rw [val_main_v3_apply, val_main_v1_apply, val_main_v0_apply, val_main_v2_apply,
    val_main_cst_0_apply, val_main_cst_apply]
  simp only [e]
  exact congrArg (Ideal.div · _) (zeroWord_add _)

/-- The row minus its mean, as first computed (for the variance). -/
theorem cen_first (x0 : (⟨S32x1723x512, .f32⟩ : BufTy).Contents (Elt Ideal)) (b : Fin 32) (n : Fin 1723) (c : Fin 512) :
    val_main_v5 (F := Ideal) x0 (ix3 b n c) = centred len512 (fun k => x0 (ix3 b n k)) c := by
  have e : idx_main_v4 (ix3 b n c) = ix3 b n (0 : Fin 1) := funext fun a => Fin.ext (by match a with | ⟨0, _⟩ => rfl | ⟨1, _⟩ => rfl | ⟨2, _⟩ => rfl)
  rw [val_main_v5_apply, val_main_v4_apply, e, mean_first]
  rfl

/-- The row minus its mean, as computed again (for the quotient). -/
theorem cenAgain_first (x0 : (⟨S32x1723x512, .f32⟩ : BufTy).Contents (Elt Ideal)) (b : Fin 32) (n : Fin 1723) (c : Fin 512) :
    val_main_v12 (F := Ideal) x0 (ix3 b n c) = centred len512 (fun k => x0 (ix3 b n k)) c := by
  have e : idx_main_v11 (ix3 b n c) = ix3 b n (0 : Fin 1) := funext fun a => Fin.ext (by match a with | ⟨0, _⟩ => rfl | ⟨1, _⟩ => rfl | ⟨2, _⟩ => rfl)
  rw [val_main_v12_apply, val_main_v11_apply, e, mean_first]
  rfl

/-- The variance column at (b, n, 0) is the mean squared deviation of the row. -/
theorem var_first (x0 : (⟨S32x1723x512, .f32⟩ : BufTy).Contents (Elt Ideal)) (b : Fin 32) (n : Fin 1723) (z : Fin 1) :
    val_main_v10 (F := Ideal) x0 (ix3 b n z) = rowVar len512 (fun k => x0 (ix3 b n k)) := by
  have e : ∀ k : Fin 512, idx_main_v7 (idx_main_v8 (ix3 b n z)) k = ix3 b n k := fun k => funext fun a => Fin.ext (by match a with | ⟨0, _⟩ => rfl | ⟨1, _⟩ => rfl | ⟨2, _⟩ => rfl)
  rw [val_main_v10_apply, val_main_v8_apply, val_main_v7_apply, val_main_v9_apply,
    val_main_cst_2_apply, val_main_cst_1_apply]
  simp only [e, val_main_v6_apply, cen_first]
  exact congrArg (Ideal.div · _) (zeroWord_add _)

/-- The normalised, scaled, shifted and clamped row. -/
theorem out_first (x0 : (⟨S32x1723x512, .f32⟩ : BufTy).Contents (Elt Ideal)) (x2 : (⟨S512, .f32⟩ : BufTy).Contents (Elt Ideal)) (x3 : (⟨S512, .f32⟩ : BufTy).Contents (Elt Ideal)) (b : Fin 32) (n : Fin 1723) (c : Fin 512) :
    val_main_v24 (F := Ideal) x0 x2 x3 (ix3 b n c)
      = normClamp len512 (fun k => x2 (ix1 k)) (fun k => x3 (ix1 k)) (fun k => x0 (ix3 b n k)) c := by
  have e1 : idx_main_v16 (ix3 b n c) = ix3 b n (0 : Fin 1) := funext fun a => Fin.ext (by match a with | ⟨0, _⟩ => rfl | ⟨1, _⟩ => rfl | ⟨2, _⟩ => rfl)
  have e2 : idx_main_v18 (idx_main_v19 (ix3 b n c)) = ix1 c := funext fun a => Fin.ext (by match a with | ⟨0, _⟩ => rfl)
  have e3 : idx_main_v21 (idx_main_v22 (ix3 b n c)) = ix1 c := funext fun a => Fin.ext (by match a with | ⟨0, _⟩ => rfl)
  rw [val_main_v24_apply, val_main_v23_apply, val_main_v20_apply, val_main_v19_apply, val_main_v18_apply, e2,
    val_main_v22_apply, val_main_v21_apply, e3, val_main_v17_apply, cenAgain_first, val_main_v16_apply, e1,
    val_main_v15_apply, val_main_v14_apply, var_first, val_main_v13_apply, val_main_cst_3_apply,
    val_main_call0_v0_apply, val_main_call0_cst_apply]
  rfl

/-! ### The first dense layer -/

/-- Row (b, n) of the first dense layer's output: the clamped row against the rows of the weight, plus the bias. -/
theorem dense_first (x0 : (⟨S32x1723x512, .f32⟩ : BufTy).Contents (Elt Ideal)) (x2 : (⟨S512, .f32⟩ : BufTy).Contents (Elt Ideal)) (x3 : (⟨S512, .f32⟩ : BufTy).Contents (Elt Ideal)) (x4 : (⟨S256x512, .f32⟩ : BufTy).Contents (Elt Ideal)) (x5 : (⟨S256, .f32⟩ : BufTy).Contents (Elt Ideal)) (b : Fin 32) (n : Fin 1723) (h : Fin 256) :
    val_main_v28 (F := Ideal) x0 x2 x3 x4 x5 (ix3 b n h)
      = denseRows (fun h c => x4 (ix2 h c)) (fun h => x5 (ix1 h)) (fun c => val_main_v24 (F := Ideal) x0 x2 x3 (ix3 b n c)) h := by
  have el : ∀ k : Fin 512, lidx_main_v25 (ix3 b n h) k = ix3 b n k := fun k => funext fun a => Fin.ext (by match a with | ⟨0, _⟩ => rfl | ⟨1, _⟩ => rfl | ⟨2, _⟩ => rfl)
  have er : ∀ k : Fin 512, ridx_main_v25 (ix3 b n h) k = ix2 h k := fun k => funext fun a => Fin.ext (by match a with | ⟨0, _⟩ => rfl | ⟨1, _⟩ => rfl)
  have e : idx_main_v26 (idx_main_v27 (ix3 b n h)) = ix1 h := funext fun a => Fin.ext (by match a with | ⟨0, _⟩ => rfl)
  rw [val_main_v28_apply, val_main_v25_apply, val_main_v27_apply, val_main_v26_apply, e]
  simp only [el, er]
  rfl

/-! ### The second normalisation (rows after the first dense layer, length 256) -/

/-- The mean column at (b, n, 0) is the mean of the row. -/
theorem mean_second (x0 : (⟨S32x1723x512, .f32⟩ : BufTy).Contents (Elt Ideal)) (x2 : (⟨S512, .f32⟩ : BufTy).Contents (Elt Ideal)) (x3 : (⟨S512, .f32⟩ : BufTy).Contents (Elt Ideal)) (x4 : (⟨S256x512, .f32⟩ : BufTy).Contents (Elt Ideal)) (x5 : (⟨S256, .f32⟩ : BufTy).Contents (Elt Ideal)) (b : Fin 32) (n : Fin 1723) (z : Fin 1) :
    val_main_v32 (F := Ideal) x0 x2 x3 x4 x5 (ix3 b n z) = rowMean len256 (fun k => val_main_v28 (F := Ideal) x0 x2 x3 x4 x5 (ix3 b n k)) := by
  have e : ∀ k : Fin 256, idx_main_v29 (idx_main_v30 (ix3 b n z)) k = ix3 b n k := fun k => funext fun a => Fin.ext (by match a with | ⟨0, _⟩ => rfl | ⟨1, _⟩ => rfl | ⟨2, _⟩ => rfl)
  rw [val_main_v32_apply, val_main_v30_apply, val_main_v29_apply, val_main_v31_apply,
    val_main_cst_5_apply, val_main_cst_4_apply]
  simp only [e]
  exact congrArg (Ideal.div · _) (zeroWord_add _)

/-- The row minus its mean, as first computed (for the variance). -/
theorem cen_second (x0 : (⟨S32x1723x512, .f32⟩ : BufTy).Contents (Elt Ideal)) (x2 : (⟨S512, .f32⟩ : BufTy).Contents (Elt Ideal)) (x3 : (⟨S512, .f32⟩ : BufTy).Contents (Elt Ideal)) (x4 : (⟨S256x512, .f32⟩ : BufTy).Contents (Elt Ideal)) (x5 : (⟨S256, .f32⟩ : BufTy).Contents (Elt Ideal)) (b : Fin 32) (n : Fin 1723) (c : Fin 256) :
    val_main_v34 (F := Ideal) x0 x2 x3 x4 x5 (ix3 b n c) = centred len256 (fun k => val_main_v28 (F := Ideal) x0 x2 x3 x4 x5 (ix3 b n k)) c := by
  have e : idx_main_v33 (ix3 b n c) = ix3 b n (0 : Fin 1) := funext fun a => Fin.ext (by match a with | ⟨0, _⟩ => rfl | ⟨1, _⟩ => rfl | ⟨2, _⟩ => rfl)
  rw [val_main_v34_apply, val_main_v33_apply, e, mean_second]
  rfl

/-- The row minus its mean, as computed again (for the quotient). -/
theorem cenAgain_second (x0 : (⟨S32x1723x512, .f32⟩ : BufTy).Contents (Elt Ideal)) (x2 : (⟨S512, .f32⟩ : BufTy).Contents (Elt Ideal)) (x3 : (⟨S512, .f32⟩ : BufTy).Contents (Elt Ideal)) (x4 : (⟨S256x512, .f32⟩ : BufTy).Contents (Elt Ideal)) (x5 : (⟨S256, .f32⟩ : BufTy).Contents (Elt Ideal)) (b : Fin 32) (n : Fin 1723) (c : Fin 256) :
    val_main_v41 (F := Ideal) x0 x2 x3 x4 x5 (ix3 b n c) = centred len256 (fun k => val_main_v28 (F := Ideal) x0 x2 x3 x4 x5 (ix3 b n k)) c := by
  have e : idx_main_v40 (ix3 b n c) = ix3 b n (0 : Fin 1) := funext fun a => Fin.ext (by match a with | ⟨0, _⟩ => rfl | ⟨1, _⟩ => rfl | ⟨2, _⟩ => rfl)
  rw [val_main_v41_apply, val_main_v40_apply, e, mean_second]
  rfl

/-- The variance column at (b, n, 0) is the mean squared deviation of the row. -/
theorem var_second (x0 : (⟨S32x1723x512, .f32⟩ : BufTy).Contents (Elt Ideal)) (x2 : (⟨S512, .f32⟩ : BufTy).Contents (Elt Ideal)) (x3 : (⟨S512, .f32⟩ : BufTy).Contents (Elt Ideal)) (x4 : (⟨S256x512, .f32⟩ : BufTy).Contents (Elt Ideal)) (x5 : (⟨S256, .f32⟩ : BufTy).Contents (Elt Ideal)) (b : Fin 32) (n : Fin 1723) (z : Fin 1) :
    val_main_v39 (F := Ideal) x0 x2 x3 x4 x5 (ix3 b n z) = rowVar len256 (fun k => val_main_v28 (F := Ideal) x0 x2 x3 x4 x5 (ix3 b n k)) := by
  have e : ∀ k : Fin 256, idx_main_v36 (idx_main_v37 (ix3 b n z)) k = ix3 b n k := fun k => funext fun a => Fin.ext (by match a with | ⟨0, _⟩ => rfl | ⟨1, _⟩ => rfl | ⟨2, _⟩ => rfl)
  rw [val_main_v39_apply, val_main_v37_apply, val_main_v36_apply, val_main_v38_apply,
    val_main_cst_7_apply, val_main_cst_6_apply]
  simp only [e, val_main_v35_apply, cen_second]
  exact congrArg (Ideal.div · _) (zeroWord_add _)

/-- The normalised, scaled, shifted and clamped row. -/
theorem out_second (x0 : (⟨S32x1723x512, .f32⟩ : BufTy).Contents (Elt Ideal)) (x2 : (⟨S512, .f32⟩ : BufTy).Contents (Elt Ideal)) (x3 : (⟨S512, .f32⟩ : BufTy).Contents (Elt Ideal)) (x4 : (⟨S256x512, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (b : Fin 32) (n : Fin 1723) (c : Fin 256) :
    val_main_v53 (F := Ideal) x0 x2 x3 x4 x5 x6 x7 (ix3 b n c)
      = normClamp len256 (fun k => x6 (ix1 k)) (fun k => x7 (ix1 k)) (fun k => val_main_v28 (F := Ideal) x0 x2 x3 x4 x5 (ix3 b n k)) c := by
  have e1 : idx_main_v45 (ix3 b n c) = ix3 b n (0 : Fin 1) := funext fun a => Fin.ext (by match a with | ⟨0, _⟩ => rfl | ⟨1, _⟩ => rfl | ⟨2, _⟩ => rfl)
  have e2 : idx_main_v47 (idx_main_v48 (ix3 b n c)) = ix1 c := funext fun a => Fin.ext (by match a with | ⟨0, _⟩ => rfl)
  have e3 : idx_main_v50 (idx_main_v51 (ix3 b n c)) = ix1 c := funext fun a => Fin.ext (by match a with | ⟨0, _⟩ => rfl)
  rw [val_main_v53_apply, val_main_v52_apply, val_main_v49_apply, val_main_v48_apply, val_main_v47_apply, e2,
    val_main_v51_apply, val_main_v50_apply, e3, val_main_v46_apply, cenAgain_second, val_main_v45_apply, e1,
    val_main_v44_apply, val_main_v43_apply, var_second, val_main_v42_apply, val_main_cst_8_apply,
    val_main_call1_v0_apply, val_main_call1_cst_apply]
  rfl

/-! ### The support matrix and the neighbourhood sum -/

/-- Row (b, n) of the support matrix: the clamped row against the columns of the convolution weight. -/
theorem support_row (x0 : (⟨S32x1723x512, .f32⟩ : BufTy).Contents (Elt Ideal)) (x2 : (⟨S512, .f32⟩ : BufTy).Contents (Elt Ideal)) (x3 : (⟨S512, .f32⟩ : BufTy).Contents (Elt Ideal)) (x4 : (⟨S256x512, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256x256, .f32⟩ : BufTy).Contents (Elt Ideal)) (b : Fin 32) (n : Fin 1723) (k : Fin 256) :
    val_main_v54 (F := Ideal) x0 x2 x3 x4 x5 x6 x7 x8 (ix3 b n k)
      = denseCols (fun h k => x8 (ix2 h k)) (fun h => val_main_v53 (F := Ideal) x0 x2 x3 x4 x5 x6 x7 (ix3 b n h)) k := by
  have el : ∀ j : Fin 256, lidx_main_v54 (ix3 b n k) j = ix3 b n j := fun j => funext fun a => Fin.ext (by match a with | ⟨0, _⟩ => rfl | ⟨1, _⟩ => rfl | ⟨2, _⟩ => rfl)
  have er : ∀ j : Fin 256, ridx_main_v54 (ix3 b n k) j = ix2 j k := fun j => funext fun a => Fin.ext (by match a with | ⟨0, _⟩ => rfl | ⟨1, _⟩ => rfl)
  rw [val_main_v54_apply]
  simp only [el, er]
  rfl

/-- Row (b, n) after the neighbourhood sum: batch b's adjacency row n against batch b's support matrix, plus the bias. -/
theorem neighbour_row (x0 : (⟨S32x1723x512, .f32⟩ : BufTy).Contents (Elt Ideal)) (x1 : (⟨S32x1723x1723, .f32⟩ : BufTy).Contents (Elt Ideal)) (x2 : (⟨S512, .f32⟩ : BufTy).Contents (Elt Ideal)) (x3 : (⟨S512, .f32⟩ : BufTy).Contents (Elt Ideal)) (x4 : (⟨S256x512, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (b : Fin 32) (n : Fin 1723) (k : Fin 256) :
    val_main_v58 (F := Ideal) x0 x1 x2 x3 x4 x5 x6 x7 x8 x9 (ix3 b n k)
      = neighbourSum (fun n m => x1 (ix3 b n m)) (fun k => x9 (ix1 k))
          (fun m k => val_main_v54 (F := Ideal) x0 x2 x3 x4 x5 x6 x7 x8 (ix3 b m k)) n k := by
  have el : ∀ j : Fin 1723, lidx_main_v55 (ix3 b n k) j = ix3 b n j := fun j => funext fun a => Fin.ext (by match a with | ⟨0, _⟩ => rfl | ⟨1, _⟩ => rfl | ⟨2, _⟩ => rfl)
  have er : ∀ j : Fin 1723, ridx_main_v55 (ix3 b n k) j = ix3 b j k := fun j => funext fun a => Fin.ext (by match a with | ⟨0, _⟩ => rfl | ⟨1, _⟩ => rfl | ⟨2, _⟩ => rfl)
  have e : idx_main_v56 (idx_main_v57 (ix3 b n k)) = ix1 k := funext fun a => Fin.ext (by match a with | ⟨0, _⟩ => rfl)
  rw [val_main_v58_apply, val_main_v55_apply, val_main_v57_apply, val_main_v56_apply, e]
  simp only [el, er]
  rfl

/-! ### The third normalisation (rows after the neighbourhood sum, length 256) -/

/-- The mean column at (b, n, 0) is the mean of the row. -/
theorem mean_third (x0 : (⟨S32x1723x512, .f32⟩ : BufTy).Contents (Elt Ideal)) (x1 : (⟨S32x1723x1723, .f32⟩ : BufTy).Contents (Elt Ideal)) (x2 : (⟨S512, .f32⟩ : BufTy).Contents (Elt Ideal)) (x3 : (⟨S512, .f32⟩ : BufTy).Contents (Elt Ideal)) (x4 : (⟨S256x512, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (b : Fin 32) (n : Fin 1723) (z : Fin 1) :
    val_main_v62 (F := Ideal) x0 x1 x2 x3 x4 x5 x6 x7 x8 x9 (ix3 b n z) = rowMean len256 (fun k => val_main_v58 (F := Ideal) x0 x1 x2 x3 x4 x5 x6 x7 x8 x9 (ix3 b n k)) := by
  have e : ∀ k : Fin 256, idx_main_v59 (idx_main_v60 (ix3 b n z)) k = ix3 b n k := fun k => funext fun a => Fin.ext (by match a with | ⟨0, _⟩ => rfl | ⟨1, _⟩ => rfl | ⟨2, _⟩ => rfl)
  rw [val_main_v62_apply, val_main_v60_apply, val_main_v59_apply, val_main_v61_apply,
    val_main_cst_10_apply, val_main_cst_9_apply]
  simp only [e]
  exact congrArg (Ideal.div · _) (zeroWord_add _)

/-- The row minus its mean, as first computed (for the variance). -/
theorem cen_third (x0 : (⟨S32x1723x512, .f32⟩ : BufTy).Contents (Elt Ideal)) (x1 : (⟨S32x1723x1723, .f32⟩ : BufTy).Contents (Elt Ideal)) (x2 : (⟨S512, .f32⟩ : BufTy).Contents (Elt Ideal)) (x3 : (⟨S512, .f32⟩ : BufTy).Contents (Elt Ideal)) (x4 : (⟨S256x512, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (b : Fin 32) (n : Fin 1723) (c : Fin 256) :
    val_main_v64 (F := Ideal) x0 x1 x2 x3 x4 x5 x6 x7 x8 x9 (ix3 b n c) = centred len256 (fun k => val_main_v58 (F := Ideal) x0 x1 x2 x3 x4 x5 x6 x7 x8 x9 (ix3 b n k)) c := by
  have e : idx_main_v63 (ix3 b n c) = ix3 b n (0 : Fin 1) := funext fun a => Fin.ext (by match a with | ⟨0, _⟩ => rfl | ⟨1, _⟩ => rfl | ⟨2, _⟩ => rfl)
  rw [val_main_v64_apply, val_main_v63_apply, e, mean_third]
  rfl

/-- The row minus its mean, as computed again (for the quotient). -/
theorem cenAgain_third (x0 : (⟨S32x1723x512, .f32⟩ : BufTy).Contents (Elt Ideal)) (x1 : (⟨S32x1723x1723, .f32⟩ : BufTy).Contents (Elt Ideal)) (x2 : (⟨S512, .f32⟩ : BufTy).Contents (Elt Ideal)) (x3 : (⟨S512, .f32⟩ : BufTy).Contents (Elt Ideal)) (x4 : (⟨S256x512, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (b : Fin 32) (n : Fin 1723) (c : Fin 256) :
    val_main_v71 (F := Ideal) x0 x1 x2 x3 x4 x5 x6 x7 x8 x9 (ix3 b n c) = centred len256 (fun k => val_main_v58 (F := Ideal) x0 x1 x2 x3 x4 x5 x6 x7 x8 x9 (ix3 b n k)) c := by
  have e : idx_main_v70 (ix3 b n c) = ix3 b n (0 : Fin 1) := funext fun a => Fin.ext (by match a with | ⟨0, _⟩ => rfl | ⟨1, _⟩ => rfl | ⟨2, _⟩ => rfl)
  rw [val_main_v71_apply, val_main_v70_apply, e, mean_third]
  rfl

/-- The variance column at (b, n, 0) is the mean squared deviation of the row. -/
theorem var_third (x0 : (⟨S32x1723x512, .f32⟩ : BufTy).Contents (Elt Ideal)) (x1 : (⟨S32x1723x1723, .f32⟩ : BufTy).Contents (Elt Ideal)) (x2 : (⟨S512, .f32⟩ : BufTy).Contents (Elt Ideal)) (x3 : (⟨S512, .f32⟩ : BufTy).Contents (Elt Ideal)) (x4 : (⟨S256x512, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (b : Fin 32) (n : Fin 1723) (z : Fin 1) :
    val_main_v69 (F := Ideal) x0 x1 x2 x3 x4 x5 x6 x7 x8 x9 (ix3 b n z) = rowVar len256 (fun k => val_main_v58 (F := Ideal) x0 x1 x2 x3 x4 x5 x6 x7 x8 x9 (ix3 b n k)) := by
  have e : ∀ k : Fin 256, idx_main_v66 (idx_main_v67 (ix3 b n z)) k = ix3 b n k := fun k => funext fun a => Fin.ext (by match a with | ⟨0, _⟩ => rfl | ⟨1, _⟩ => rfl | ⟨2, _⟩ => rfl)
  rw [val_main_v69_apply, val_main_v67_apply, val_main_v66_apply, val_main_v68_apply,
    val_main_cst_12_apply, val_main_cst_11_apply]
  simp only [e, val_main_v65_apply, cen_third]
  exact congrArg (Ideal.div · _) (zeroWord_add _)

/-- The normalised, scaled, shifted and clamped row. -/
theorem out_third (x0 : (⟨S32x1723x512, .f32⟩ : BufTy).Contents (Elt Ideal)) (x1 : (⟨S32x1723x1723, .f32⟩ : BufTy).Contents (Elt Ideal)) (x2 : (⟨S512, .f32⟩ : BufTy).Contents (Elt Ideal)) (x3 : (⟨S512, .f32⟩ : BufTy).Contents (Elt Ideal)) (x4 : (⟨S256x512, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (b : Fin 32) (n : Fin 1723) (c : Fin 256) :
    val_main_v83 (F := Ideal) x0 x1 x2 x3 x4 x5 x6 x7 x8 x9 x10 x11 (ix3 b n c)
      = normClamp len256 (fun k => x10 (ix1 k)) (fun k => x11 (ix1 k)) (fun k => val_main_v58 (F := Ideal) x0 x1 x2 x3 x4 x5 x6 x7 x8 x9 (ix3 b n k)) c := by
  have e1 : idx_main_v75 (ix3 b n c) = ix3 b n (0 : Fin 1) := funext fun a => Fin.ext (by match a with | ⟨0, _⟩ => rfl | ⟨1, _⟩ => rfl | ⟨2, _⟩ => rfl)
  have e2 : idx_main_v77 (idx_main_v78 (ix3 b n c)) = ix1 c := funext fun a => Fin.ext (by match a with | ⟨0, _⟩ => rfl)
  have e3 : idx_main_v80 (idx_main_v81 (ix3 b n c)) = ix1 c := funext fun a => Fin.ext (by match a with | ⟨0, _⟩ => rfl)
  rw [val_main_v83_apply, val_main_v82_apply, val_main_v79_apply, val_main_v78_apply, val_main_v77_apply, e2,
    val_main_v81_apply, val_main_v80_apply, e3, val_main_v76_apply, cenAgain_third, val_main_v75_apply, e1,
    val_main_v74_apply, val_main_v73_apply, var_third, val_main_v72_apply, val_main_cst_13_apply,
    val_main_call2_v0_apply, val_main_call2_cst_apply]
  rfl

/-! ### The last dense layer and the skip connection -/

/-- Row (b, n) of the last dense layer's output. -/
theorem dense_last (x0 : (⟨S32x1723x512, .f32⟩ : BufTy).Contents (Elt Ideal)) (x1 : (⟨S32x1723x1723, .f32⟩ : BufTy).Contents (Elt Ideal)) (x2 : (⟨S512, .f32⟩ : BufTy).Contents (Elt Ideal)) (x3 : (⟨S512, .f32⟩ : BufTy).Contents (Elt Ideal)) (x4 : (⟨S256x512, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S512x256, .f32⟩ : BufTy).Contents (Elt Ideal)) (x13 : (⟨S512, .f32⟩ : BufTy).Contents (Elt Ideal)) (b : Fin 32) (n : Fin 1723) (c : Fin 512) :
    val_main_v87 (F := Ideal) x0 x1 x2 x3 x4 x5 x6 x7 x8 x9 x10 x11 x12 x13 (ix3 b n c)
      = denseRows (fun c h => x12 (ix2 c h)) (fun c => x13 (ix1 c))
          (fun h => val_main_v83 (F := Ideal) x0 x1 x2 x3 x4 x5 x6 x7 x8 x9 x10 x11 (ix3 b n h)) c := by
  have el : ∀ k : Fin 256, lidx_main_v84 (ix3 b n c) k = ix3 b n k := fun k => funext fun a => Fin.ext (by match a with | ⟨0, _⟩ => rfl | ⟨1, _⟩ => rfl | ⟨2, _⟩ => rfl)
  have er : ∀ k : Fin 256, ridx_main_v84 (ix3 b n c) k = ix2 c k := fun k => funext fun a => Fin.ext (by match a with | ⟨0, _⟩ => rfl | ⟨1, _⟩ => rfl)
  have e : idx_main_v85 (idx_main_v86 (ix3 b n c)) = ix1 c := funext fun a => Fin.ext (by match a with | ⟨0, _⟩ => rfl)
  rw [val_main_v87_apply, val_main_v84_apply, val_main_v86_apply, val_main_v85_apply, e]
  simp only [el, er]
  rfl

/-! ### The whole reference result is the block's value -/

/-- The reference's result array, as a function of the fourteen arguments, is the block's value batch by batch. -/
theorem result_eq (x0 : (⟨S32x1723x512, .f32⟩ : BufTy).Contents (Elt Ideal)) (x1 : (⟨S32x1723x1723, .f32⟩ : BufTy).Contents (Elt Ideal)) (x2 : (⟨S512, .f32⟩ : BufTy).Contents (Elt Ideal)) (x3 : (⟨S512, .f32⟩ : BufTy).Contents (Elt Ideal)) (x4 : (⟨S256x512, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S512x256, .f32⟩ : BufTy).Contents (Elt Ideal)) (x13 : (⟨S512, .f32⟩ : BufTy).Contents (Elt Ideal)) :
    val_main_v88 (F := Ideal) x0 x1 x2 x3 x4 x5 x6 x7 x8 x9 x10 x11 x12 x13
      = result x0 x1 x2 x3 x4 x5 x6 x7 x8 x9 x10 x11 x12 x13 := by
  funext i
  obtain ⟨b, n, c, rfl⟩ : ∃ (b : Fin 32) (n : Fin 1723) (c : Fin 512), i = ix3 b n c := ⟨i 0, i 1, i 2, eq_ix3 i⟩
  let P := weightsOf x2 x3 x4 x5 x6 x7 x8 x9 x10 x11 x12 x13
  let X : Fin 1723 → Fin 512 → EReal := fun n c => x0 (ix3 b n c)
  let A : Fin 1723 → Fin 1723 → EReal := fun n m => x1 (ix3 b n m)
  have h0 : ∀ n, (fun c => val_main_v24 (F := Ideal) x0 x2 x3 (ix3 b n c)) = stage0 P X n :=
    fun n => funext fun c => out_first x0 x2 x3 b n c
  have h1 : ∀ n, (fun h => val_main_v28 (F := Ideal) x0 x2 x3 x4 x5 (ix3 b n h)) = stage1 P X n :=
    fun n => funext fun h => (dense_first x0 x2 x3 x4 x5 b n h).trans (by rw [h0 n]; rfl)
  have h1c : ∀ n, (fun h => val_main_v53 (F := Ideal) x0 x2 x3 x4 x5 x6 x7 (ix3 b n h)) = stage1c P X n :=
    fun n => funext fun h => (out_second x0 x2 x3 x4 x5 x6 x7 b n h).trans (by rw [h1 n]; rfl)
  have hs : (fun m k => val_main_v54 (F := Ideal) x0 x2 x3 x4 x5 x6 x7 x8 (ix3 b m k)) = support P X :=
    funext fun m => funext fun k => (support_row x0 x2 x3 x4 x5 x6 x7 x8 b m k).trans (by rw [h1c m]; rfl)
  have h2 : ∀ n, (fun k => val_main_v58 (F := Ideal) x0 x1 x2 x3 x4 x5 x6 x7 x8 x9 (ix3 b n k)) = stage2 P X A n :=
    fun n => funext fun k => (neighbour_row x0 x1 x2 x3 x4 x5 x6 x7 x8 x9 b n k).trans (by rw [hs]; rfl)
  have h2c : ∀ n, (fun h => val_main_v83 (F := Ideal) x0 x1 x2 x3 x4 x5 x6 x7 x8 x9 x10 x11 (ix3 b n h)) = stage2c P X A n :=
    fun n => funext fun h => (out_third x0 x1 x2 x3 x4 x5 x6 x7 x8 x9 x10 x11 b n h).trans (by rw [h2 n]; rfl)
  rw [val_main_v88_apply, dense_last, h2c n]
  rfl

end Cert.ReferenceSlab

end
-- ==== Proof.lean ====
/-
  The graph residual block: a fused kernel, one grid point per batch, against the batched array program.

  Both programs compute, for each of the 32 batches, the same chain on the batch's [1723, 512] slab x: normalise each
  row (mean and mean squared deviation over the row, a small constant under the square root), scale and shift per
  column, clamp at zero; a dense layer to 256 columns; normalise and clamp again; multiply by the convolution weight
  (the support matrix); sum over neighbours with the batch's [1723, 1723] adjacency matrix and add a bias; normalise
  and clamp a third time; a dense layer back to 512 columns; add x. The kernel does this on one slab per grid point,
  the row statistics kept as columns and the products taken into zero accumulators; the reference does it on the whole
  [32, 1723, K] arrays with sums over the last axis and one contraction per product, the neighbourhood sum batched.

  At the exact extended reals every operation of one program is the same scalar operation as its counterpart in
  the other, applied to the same operands in the same order: a sum started from the float zero is the sum, and a
  product into a zero accumulator is the contraction. So no algebraic law beyond 0 + s = s is needed and the
  finiteness of the inputs is not used. Both results are the one function Cert.GraphBlock.result of the fourteen
  argument arrays: the reference's by reading its operations one at a time at an index (b, n, c), the kernel's by
  reading the body's stored block at (n, c) on the blocks loaded at grid point b and then tiling the result array by
  the 32 written blocks.

  The kernel's text read at the exact extended reals is the kernel's own text, nothing rewritten, so the conjunct that
  relates the two readings is trivial; the three frames are the generated ones (the reference's is its generated run
  with the result dropped).
-/
import proofs.«119696_j40415642255555_2_alg».proof.Defs
import proofs.«119696_j40415642255555_2_alg».proof.Proof.Gen.Kernel
import proofs.«119696_j40415642255555_2_alg».proof.Proof.Gen.Kernel.Skeleton
import proofs.«119696_j40415642255555_2_alg».proof.Proof.Gen.Kernel.Launch
import proofs.«119696_j40415642255555_2_alg».proof.Proof.Gen.Kernel.Points
import proofs.«119696_j40415642255555_2_alg».proof.Proof.Gen.Kernel.Frame
import proofs.«119696_j40415642255555_2_alg».proof.Proof.Gen.KernelIdeal
import proofs.«119696_j40415642255555_2_alg».proof.Proof.Gen.KernelIdeal.Skeleton
import proofs.«119696_j40415642255555_2_alg».proof.Proof.Gen.KernelIdeal.Launch
import proofs.«119696_j40415642255555_2_alg».proof.Proof.Gen.KernelIdeal.Points
import proofs.«119696_j40415642255555_2_alg».proof.Proof.Gen.KernelIdeal.Frame
import proofs.«119696_j40415642255555_2_alg».proof.Proof.Gen.ReferenceIdeal
import proofs.«119696_j40415642255555_2_alg».proof.Proof.Gen.Pre_finite_inputs
import proofs.«119696_j40415642255555_2_alg».proof.Proof.Gen.KernelIdeal.Value
import proofs.«119696_j40415642255555_2_alg».proof.Proof.Gen.ReferenceIdeal.Run
import proofs.«119696_j40415642255555_2_alg».proof.Proof.Gen.ReferenceIdeal.Read
import proofs.«119696_j40415642255555_2_alg».proof.Proof.KernelWhole
import proofs.«119696_j40415642255555_2_alg».proof.Proof.ReferenceSlab
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading at the exact extended reals. -/
theorem frame_kernelIdeal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealisation. -/
theorem preserves : Cert.preserves_Kernel_KernelIdeal := trivial

/-- From memories that agree on the fourteen arguments both programs end with the block's value of those arguments
    in their result arrays. -/
theorem algebraic : Cert.algebraic_KernelIdeal_ReferenceIdeal := by
  intro m ρ m' ρ' _ hagree
  refine ⟨_, Cert.KernelWhole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [Cert.ReferenceIdeal.Read.val_main_v88_eq, Cert.ReferenceSlab.result_eq, e0, e1, e2, e3, e4, e5, e6, e7, e8, e9, e10,
    e11, e12, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
